-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4x4096x8 : Shape := ⟨3, ![4, 4096, 8]⟩
abbrev S4096x4096 : Shape := ⟨2, ![4096, 4096]⟩
abbrev S4096 : Shape := ⟨1, ![4096]⟩
abbrev S4096x8 : Shape := ⟨2, ![4096, 8]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4x4096x8 : S_.BroadcastsInDim S4x4096x8 (![] : Fin 0 → Fin S4x4096x8.rank)
  reducesTo_S4x4096x8_S_d0_1_2 : S4x4096x8.ReducesTo [0, 1, 2] S_
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x8 : S_.BroadcastsInDim S4096x8 (![] : Fin 0 → Fin S4096x8.rank)
  reducesTo_S4096x8_S_d0_1 : S4096x8.ReducesTo [0, 1] S_

variable [Facts]

def fn_part1 {F : FTy → Type} [FloatOps F] (main_arg4 : FVec F S4096x8 .f32) (main_arg5 : FVec F S4096x8 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x8 .f32 := Host.absf main_arg4
  let main_cst_6 : FVec F S_ .f32 := constant S_ .f32 0x7F800000#32
  let main_v20 : FVec F S4096x8 .f32 := broadcastInDim S4096x8 ![] bcast_S_S4096x8 main_cst_6
  let main_v21 : IVec S4096x8 1 := cmpf .olt main_v19 main_v20
  let main_c_7 : IVec S_ 1 := constantI S_ 1 1#1
  let main_v22 : IVec S_ 1 := (fun x v => Host.reduce IntOp.andi x v reducesTo_S4096x8_S_d0_1 h_S_) main_v21 main_c_7
  let main_v23 : IVec S_ 1 := andi main_v18 main_v22
  let main_v24 : FVec F S4096x8 .f32 := Host.absf main_arg5
  let main_cst_8 : FVec F S_ .f32 := constant S_ .f32 0x7F800000#32
  let main_v25 : FVec F S4096x8 .f32 := broadcastInDim S4096x8 ![] bcast_S_S4096x8 main_cst_8
  let main_v26 : IVec S4096x8 1 := cmpf .olt main_v24 main_v25
  let main_c_9 : IVec S_ 1 := constantI S_ 1 1#1
  let main_v27 : IVec S_ 1 := (fun x v => Host.reduce IntOp.andi x v reducesTo_S4096x8_S_d0_1 h_S_) main_v26 main_c_9
  let main_v28 : IVec S_ 1 := andi main_v23 main_v27
  main_v28

def fn {F : FTy → Type} [FloatOps F] (main_arg0 : FVec F S4x4096x4096 .f32) (main_arg1 : FVec F S4x4096x8 .f32) (main_arg2 : FVec F S4096x4096 .f32) (main_arg3 : FVec F S4096 .f32) (main_arg4 : FVec F S4096x8 .f32) (main_arg5 : FVec F S4096x8 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4x4096x8 .f32 := Host.absf main_arg1
  let main_cst_0 : FVec F S_ .f32 := constant S_ .f32 0x7F800000#32
  let main_v5 : FVec F S4x4096x8 .f32 := broadcastInDim S4x4096x8 ![] bcast_S_S4x4096x8 main_cst_0
  let main_v6 : IVec S4x4096x8 1 := cmpf .olt main_v4 main_v5
  let main_c_1 : IVec S_ 1 := constantI S_ 1 1#1
  let main_v7 : IVec S_ 1 := (fun x v => Host.reduce IntOp.andi x v reducesTo_S4x4096x8_S_d0_1_2 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S4x4096x4096 : Shape := ⟨3, ![4, 4096, 4096]⟩
abbrev S4x4096x8 : Shape := ⟨3, ![4, 4096, 8]⟩
abbrev S4096x4096 : Shape := ⟨2, ![4096, 4096]⟩
abbrev S4096 : Shape := ⟨1, ![4096]⟩
abbrev S4096x8 : Shape := ⟨2, ![4096, 8]⟩
abbrev S16384x4096 : Shape := ⟨2, ![16384, 4096]⟩
abbrev S16384x8 : Shape := ⟨2, ![16384, 8]⟩
abbrev S1x4096 : Shape := ⟨2, ![1, 4096]⟩
abbrev S1024x512 : Shape := ⟨2, ![1024, 512]⟩
abbrev S512x8 : Shape := ⟨2, ![512, 8]⟩
abbrev S1024x8 : Shape := ⟨2, ![1024, 8]⟩
abbrev S1x1024 : Shape := ⟨2, ![1, 1024]⟩
abbrev S1024x1024 : Shape := ⟨2, ![1024, 1024]⟩

abbrev nBuf : Space → Nat
  | .hbm => 11
  | .vmem => 16
  | .smem => 0
  | _ => 0

abbrev bufTy : (tb : Table) → Fin (tcTables nBuf tb) → BufTy
  | .hbm, ⟨0, _⟩ => ⟨S4x4096x4096, .f32⟩
  | .hbm, ⟨1, _⟩ => ⟨S4x4096x8, .f32⟩
  | .hbm, ⟨2, _⟩ => ⟨S4096x4096, .f32⟩
  | .hbm, ⟨3, _⟩ => ⟨S4096, .f32⟩
  | .hbm, ⟨4, _⟩ => ⟨S4096x8, .f32⟩
  | .hbm, ⟨5, _⟩ => ⟨S4096x8, .f32⟩
  | .hbm, ⟨6, _⟩ => ⟨S16384x4096, .f32⟩
  | .hbm, ⟨7, _⟩ => ⟨S16384x8, .f32⟩
  | .hbm, ⟨8, _⟩ => ⟨S1x4096, .f32⟩
  | .hbm, ⟨9, _⟩ => ⟨S16384x4096, .f32⟩
  | .hbm, ⟨10, _⟩ => ⟨S4x4096x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S512x8, .f32⟩
  | .local _ .vmem, ⟨5, _⟩ => ⟨S512x8, .f32⟩
  | .local _ .vmem, ⟨6, _⟩ => ⟨S1024x8, .f32⟩
  | .local _ .vmem, ⟨7, _⟩ => ⟨S1024x8, .f32⟩
  | .local _ .vmem, ⟨8, _⟩ => ⟨S1024x8, .f32⟩
  | .local _ .vmem, ⟨9, _⟩ => ⟨S1024x8, .f32⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x8, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![16, 4, 8], ![false, false, false]⟩

def k0_cond2 (i : grid0.Coords) : BitVec 1 :=
  let arg2 : BitVec 32 := BitVec.ofNat 32 (i 2).val
  let c7_i32 : BitVec 32 := 7#32
  let v22 : BitVec 1 := Scalar.cmpi .eq arg2 c7_i32
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  shapeCasts_S4x4096x4096_S16384x4096 : S4x4096x4096.ShapeCasts S16384x4096
  shapeCasts_S4x4096x8_S16384x8 : S4x4096x8.ShapeCasts S16384x8
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S512x8_S512x8_0_0 : ∀ a, (![0, 0] : Fin 2 → Nat) a + S512x8.size a ≤ S512x8.size a
  h_S512x8 : 0 < S512x8.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S16384x4096_S4x4096x4096 : S16384x4096.ShapeCasts S4x4096x4096
  dot_S1024x512_S1024x512_S1024x1024_1_1_0_0_n_n_wf : DotDims.WF S1024x512 S1024x512 S1024x1024 [1] [1] [0] [0] [] []
  dot_S1024x512_S512x8_S1024x8_1_0_0_1_n_n_wf : DotDims.WF S1024x512 S512x8 S1024x8 [1] [0] [0] [1] [] []
  dot_S1024x8_S1024x8_S1024x1024_1_1_0_0_n_n_wf : DotDims.WF S1024x8 S1024x8 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x4096.size a
  hwx0_0 : ∀ i : grid0.Coords, EltTy.bits .f32 = 32 ∨ (Rect.block (s := S16384x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x8.size a ≤ S4096x8.size a
  hwx0_2 : ∀ i : grid0.Coords, EltTy.bits .f32 = 32 ∨ (Rect.block (s := S4096x8) S512x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x8.size a ≤ S4096x8.size a
  hwx0_3 : ∀ i : grid0.Coords, EltTy.bits .f32 = 32 ∨ (Rect.block (s := S4096x8) S1024x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x8.size a ≤ S16384x8.size a
  hwx0_4 : ∀ i : grid0.Coords, EltTy.bits .f32 = 32 ∨ (Rect.block (s := S16384x8) S1024x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x4096.size a
  hwx0_5 : ∀ i : grid0.Coords, EltTy.bits .f32 = 32 ∨ (Rect.block (s := S1x4096) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S16384x4096.size a
  hwx0_6 : ∀ i : grid0.Coords, EltTy.bits .f32 = 32 ∨ (Rect.block (s := S16384x4096) S1024x1024.size (cc0_transform_6 i) (hinb0_6 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x512_S512x8_S1024x8_1_0_0_1_n_n : DotDims S1024x512 S512x8 S1024x8 where
  lhsContracting := [1]
  rhsContracting := [0]
  lhsNonContracting := [0]
  rhsNonContracting := [1]
  lhsBatch := []
  rhsBatch := []
  wf := dot_S1024x512_S512x8_S1024x8_1_0_0_1_n_n_wf
def dot_S1024x8_S1024x8_S1024x1024_1_1_0_0_n_n : DotDims S1024x8 S1024x8 S1024x1024 where
  lhsContracting := [1]
  rhsContracting := [1]
  lhsNonContracting := [0]
  rhsNonContracting := [0]
  lhsBatch := []
  rhsBatch := []
  wf := dot_S1024x8_S1024x8_S1024x1024_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S512x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1024x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x8.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4x4096x8 : Shape := ⟨3, ![4, 4096, 8]⟩
abbrev S4096x4096 : Shape := ⟨2, ![4096, 4096]⟩
abbrev S4096 : Shape := ⟨1, ![4096]⟩
abbrev S4096x8 : Shape := ⟨2, ![4096, 8]⟩
abbrev S1x1x4096 : Shape := ⟨3, ![1, 1, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x4096x8, .f32⟩
  | .hbm, ⟨2, _⟩ => ⟨S4096x4096, .f32⟩
  | .hbm, ⟨3, _⟩ => ⟨S4096, .f32⟩
  | .hbm, ⟨4, _⟩ => ⟨S4096x8, .f32⟩
  | .hbm, ⟨5, _⟩ => ⟨S4096x8, .f32⟩
  | .hbm, ⟨6, _⟩ => ⟨S4x4096x4096, .f32⟩
  | .hbm, ⟨7, _⟩ => ⟨S1x1x4096, .f32⟩
  | .hbm, ⟨8, _⟩ => ⟨S4x4096x4096, .f32⟩
  | .hbm, ⟨9, _⟩ => ⟨S4x4096x4096, .f32⟩
  | .hbm, ⟨10, _⟩ => ⟨S4x4096x8, .f32⟩
  | .hbm, ⟨11, _⟩ => ⟨S4x4096x8, .f32⟩
  | .hbm, ⟨12, _⟩ => ⟨S4x4096x4096, .f32⟩
  | .hbm, ⟨13, _⟩ => ⟨S_, .f32⟩
  | .hbm, ⟨14, _⟩ => ⟨S4x4096x4096, .f32⟩
  | .hbm, ⟨15, _⟩ => ⟨S4x4096x4096, .f32⟩
  | .hbm, ⟨16, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S_S4x4096x4096 : S_.BroadcastsInDim S4x4096x4096 (![] : Fin 0 → Fin S4x4096x4096.rank)
  dot_S4x4096x4096_S4096x4096_S4x4096x4096_2_1_01_0_n_n_wf : DotDims.WF S4x4096x4096 S4096x4096 S4x4096x4096 [2] [1] [0, 1] [0] [] []
  dot_S4x4096x4096_S4096x8_S4x4096x8_2_0_01_1_n_n_wf : DotDims.WF S4x4096x4096 S4096x8 S4x4096x8 [2] [0] [0, 1] [1] [] []
  dot_S4x4096x8_S4096x8_S4x4096x4096_2_1_01_0_n_n_wf : DotDims.WF S4x4096x8 S4096x8 S4x4096x4096 [2] [1] [0, 1] [0] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf
def dot_S4x4096x4096_S4096x8_S4x4096x8_2_0_01_1_n_n : DotDims S4x4096x4096 S4096x8 S4x4096x8 where
  lhsContracting := [2]
  rhsContracting := [0]
  lhsNonContracting := [0, 1]
  rhsNonContracting := [1]
  lhsBatch := []
  rhsBatch := []
  wf := dot_S4x4096x4096_S4096x8_S4x4096x8_2_0_01_1_n_n_wf
def dot_S4x4096x8_S4096x8_S4x4096x4096_2_1_01_0_n_n : DotDims S4x4096x8 S4096x8 S4x4096x4096 where
  lhsContracting := [2]
  rhsContracting := [1]
  lhsNonContracting := [0, 1]
  rhsNonContracting := [0]
  lhsBatch := []
  rhsBatch := []
  wf := dot_S4x4096x8_S4096x8_S4x4096x4096_2_1_01_0_n_n_wf

class Facts : Prop extends Facts₀ where

variable [Facts]
-- ==== Proof.Spec.lean ====
/-
  The function both programs compute, over the extended reals: a linear layer with a gated low-rank update,

      out[b, s, o] = (Σ_d x[b, s, d] · W[o, d] + bias[o]) + (Σ_r ((Σ_d x[b, s, d] · V[d, r]) · codes[b, s, r]) · U[o, r]) · 2,

  stated once over the three-axis arrays (`G`) and once over the arrays with the two leading axes flattened into
  16384 rows (`G2`), which is how the tiled program sees them.

  The tiled program accumulates the two contractions over d in eight blocks of 512.  `partRR` and `partRC` are the
  partial sums over the first K blocks, written over natural-number coordinates (`nat2`: an entry of a matrix, zero
  outside it) so that the step from K to K + 1 is `Finset.sum_range_succ` and no index carries a bound.  Addition of
  extended reals is associative and commutative, so the eight blocks together are the whole sum (`partRR_full`,
  `partRC_full`); nothing here needs the entries to be finite.
-/
import Idealize.ShloMosaic.PureOps.Ideal
import Idealize.ShloMosaic.PureOps.Ideal.Laws
import Idealize.ShloMosaic.Lib.ValueIdx

noncomputable section

namespace Cert.GatedLowRank

open Idealize.ShloMosaic Idealize.ShloMosaic.ValueIdx
open scoped BigOperators

/-- A matrix of extended reals with `a` rows and `b` columns. -/
abbrev Mat (a b : Nat) : Type := (⟨2, ![a, b]⟩ : Shape).Idx → Ideal .f32
/-- A three-axis array of extended reals. -/
abbrev Arr3 (a b c : Nat) : Type := (⟨3, ![a, b, c]⟩ : Shape).Idx → Ideal .f32
/-- A vector of extended reals. -/
abbrev Vec1 (a : Nat) : Type := (⟨1, ![a]⟩ : Shape).Idx → Ideal .f32

/-- The scale of the low-rank term: the float word of 2. -/
abbrev two : Ideal .f32 := Ideal.ofBits .f32 0x40000000#32

/-- The result at batch `b`, position `s`, output feature `o`. -/
def Gat (X : Arr3 4 4096 4096) (C : Arr3 4 4096 8) (W : Mat 4096 4096) (Bv : Vec1 4096) (U Vm : Mat 4096 8)
    (b : Fin 4) (s : Fin 4096) (o : Fin 4096) : Ideal .f32 :=
  ((∑ d : Fin 4096, X (ix3 b s d) * W (ix2 o d)) + Bv (ix1 o))
    + (∑ r : Fin 8, ((∑ d : Fin 4096, X (ix3 b s d) * Vm (ix2 d r)) * C (ix3 b s r)) * U (ix2 o r)) * two

/-- The result as one function of the six argument arrays. -/
def G (X : Arr3 4 4096 4096) (C : Arr3 4 4096 8) (W : Mat 4096 4096) (Bv : Vec1 4096) (U Vm : Mat 4096 8) :
    Arr3 4 4096 4096 :=
  fun i => Gat X C W Bv U Vm (i 0) (i 1) (i 2)

/-- The same with batch and position flattened into one row index, the bias as a one-row matrix. -/
def G2at (X2 : Mat 16384 4096) (C2 : Mat 16384 8) (W : Mat 4096 4096) (B2 : Mat 1 4096) (U Vm : Mat 4096 8)
    (p : Fin 16384) (o : Fin 4096) : Ideal .f32 :=
  ((∑ d : Fin 4096, X2 (ix2 p d) * W (ix2 o d)) + B2 (ix2 0 o))
    + (∑ r : Fin 8, ((∑ d : Fin 4096, X2 (ix2 p d) * Vm (ix2 d r)) * C2 (ix2 p r)) * U (ix2 o r)) * two

/-- The flattened result as one function of its arrays. -/
def G2 (X2 : Mat 16384 4096) (C2 : Mat 16384 8) (W : Mat 4096 4096) (B2 : Mat 1 4096) (U Vm : Mat 4096 8) :
    Mat 16384 4096 :=
  fun j => G2at X2 C2 W B2 U Vm (j 0) (j 1)

/-! ## Partial sums over blocks of 512 -/

/-- A matrix entry at natural-number coordinates; zero outside the matrix. -/
def nat2 {a b : Nat} (A : Mat a b) (r c : Nat) : Ideal .f32 :=
  if h : r < a ∧ c < b then A (ix2 ⟨r, h.1⟩ ⟨c, h.2⟩) else 0

theorem nat2_of_lt {a b : Nat} (A : Mat a b) {r c : Nat} (hr : r < a) (hc : c < b) :
    nat2 A r c = A (ix2 ⟨r, hr⟩ ⟨c, hc⟩) := dif_pos ⟨hr, hc⟩

/-- Summing block by block is summing straight through: Σ_{k<K} Σ_{l<512} g(512k + l) = Σ_{d<512K} g(d). -/
theorem sum_blocks (g : Nat → Ideal .f32) (K : Nat) :
    ∑ k ∈ Finset.range K, ∑ l ∈ Finset.range 512, g (k * 512 + l) = ∑ d ∈ Finset.range (K * 512), g d := by
  induction K with
  | zero => simp
  | succ K ih => rw [Finset.sum_range_succ, ih, Nat.succ_mul, Finset.sum_range_add]

/-- Row `R` of `A` against row `Q` of `B`, over the first `K` blocks of columns. -/
def partRR {a b n : Nat} (A : Mat a n) (B : Mat b n) (R Q K : Nat) : Ideal .f32 :=
  ∑ k ∈ Finset.range K, ∑ l ∈ Finset.range 512, nat2 A R (k * 512 + l) * nat2 B Q (k * 512 + l)

/-- Row `R` of `A` against column `S` of `B`, over the first `K` blocks. -/
def partRC {a n s : Nat} (A : Mat a n) (B : Mat n s) (R S K : Nat) : Ideal .f32 :=
  ∑ k ∈ Finset.range K, ∑ l ∈ Finset.range 512, nat2 A R (k * 512 + l) * nat2 B (k * 512 + l) S

theorem partRR_zero {a b n : Nat} (A : Mat a n) (B : Mat b n) (R Q : Nat) : partRR A B R Q 0 = 0 :=
  Finset.sum_range_zero _

theorem partRC_zero {a n s : Nat} (A : Mat a n) (B : Mat n s) (R S : Nat) : partRC A B R S 0 = 0 :=
  Finset.sum_range_zero _

/-- One more block: the partial sum grows by that block's 512 products. -/
theorem partRR_succ {a b n : Nat} (A : Mat a n) (B : Mat b n) (R Q K : Nat) :
    partRR A B R Q (K + 1)
      = partRR A B R Q K + ∑ l : Fin 512, nat2 A R (K * 512 + l.val) * nat2 B Q (K * 512 + l.val) := by
  unfold partRR
  rw [Finset.sum_range_succ, Fin.sum_univ_eq_sum_range (fun l => nat2 A R (K * 512 + l) * nat2 B Q (K * 512 + l)) 512]

theorem partRC_succ {a n s : Nat} (A : Mat a n) (B : Mat n s) (R S K : Nat) :
    partRC A B R S (K + 1)
      = partRC A B R S K + ∑ l : Fin 512, nat2 A R (K * 512 + l.val) * nat2 B (K * 512 + l.val) S := by
  unfold partRC
  rw [Finset.sum_range_succ, Fin.sum_univ_eq_sum_range (fun l => nat2 A R (K * 512 + l) * nat2 B (K * 512 + l) S) 512]

/-- All eight blocks: the whole contraction over 4096. -/
theorem partRR_full {a b : Nat} (A : Mat a 4096) (B : Mat b 4096) (R : Fin a) (Q : Fin b) :
    partRR A B R.val Q.val 8 = ∑ d : Fin 4096, A (ix2 R d) * B (ix2 Q d) := by
  unfold partRR
  rw [sum_blocks (fun d => nat2 A R.val d * nat2 B Q.val d) 8,
    ← Fin.sum_univ_eq_sum_range (fun d => nat2 A R.val d * nat2 B Q.val d) (8 * 512)]
  exact Finset.sum_congr rfl fun d _ => by rw [nat2_of_lt A R.isLt d.isLt, nat2_of_lt B Q.isLt d.isLt]

theorem partRC_full {a s : Nat} (A : Mat a 4096) (B : Mat 4096 s) (R : Fin a) (S : Fin s) :
    partRC A B R.val S.val 8 = ∑ d : Fin 4096, A (ix2 R d) * B (ix2 d S) := by
  unfold partRC
  rw [sum_blocks (fun d => nat2 A R.val d * nat2 B d S.val) 8,
    ← Fin.sum_univ_eq_sum_range (fun d => nat2 A R.val d * nat2 B d S.val) (8 * 512)]
  exact Finset.sum_congr rfl fun d _ => by rw [nat2_of_lt A R.isLt d.isLt, nat2_of_lt B d.isLt S.isLt]

end Cert.GatedLowRank

end
-- ==== Proof.RefValue.lean ====
/-
  The reference program computes the specification `G` entry by entry.

  Its eleven operations are three contractions, two broadcasts of the bias, the constant 2 and its broadcast, and
  four pointwise operations.  Reading the result at an index (b, s, o) through each operation in turn gives

      (Σ_d x[b,s,d]·W[o,d] + bias[o]) + (Σ_r ((Σ_d x[b,s,d]·V[d,r])·codes[b,s,r])·U[o,r])·2,

  which is the definition of `G` at that index.  The only work is to identify the index functions through which
  each operation reads its operands with the coordinate constructors the specification uses.
-/
import proofs.«140376_j57226144252156_1_alg».proof.Proof.Gen.ReferenceIdeal.Read
import proofs.«140376_j57226144252156_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.GatedLowRank
open scoped BigOperators

/-! ## Where each operation reads its operands

Each equation is stated at an index given by its coordinates b < 4, s < 4096, o < 4096 (or r < 8), so that every
coordinate has a literal bound. -/

/-- The first contraction reads x at (b, s, d). -/
theorem lidx0_eq (b : Fin 4) (s o k : Fin 4096) : lidx_main_v0 (ix3 b s o) k = ix3 b s k :=
  funext fun a => Fin.ext (by match a with | ⟨0, _⟩ => rfl | ⟨1, _⟩ => rfl | ⟨2, _⟩ => rfl)

/-- The first contraction reads W at (o, d). -/
theorem ridx0_eq (b : Fin 4) (s o k : Fin 4096) : ridx_main_v0 (ix3 b s o) k = ix2 o k :=
  funext fun a => Fin.ext (by match a with | ⟨0, _⟩ => rfl | ⟨1, _⟩ => rfl)

/-- The two broadcasts of the bias together read it at o. -/
theorem idx12_eq (b : Fin 4) (s o : Fin 4096) : idx_main_v1 (idx_main_v2 (ix3 b s o)) = ix1 o :=
  funext fun a => Fin.ext (by match a with | ⟨0, _⟩ => rfl)

/-- The last contraction reads the gated projection at (b, s, r). -/
theorem lidx6_eq (b : Fin 4) (s o : Fin 4096) (k : Fin 8) : lidx_main_v6 (ix3 b s o) k = ix3 b s k :=
  funext fun a => Fin.ext (by match a with | ⟨0, _⟩ => rfl | ⟨1, _⟩ => rfl | ⟨2, _⟩ => rfl)

/-- The last contraction reads U at (o, r). -/
theorem ridx6_eq (b : Fin 4) (s o : Fin 4096) (k : Fin 8) : ridx_main_v6 (ix3 b s o) k = ix2 o k :=
  funext fun a => Fin.ext (by match a with | ⟨0, _⟩ => rfl | ⟨1, _⟩ => rfl)

/-- The projection at (b, s, r) reads x at (b, s, d). -/
theorem lidx4_eq (b : Fin 4) (s : Fin 4096) (r : Fin 8) (k : Fin 4096) :
    lidx_main_v4 (ix3 b s r) k = ix3 b s k :=
  funext fun a => Fin.ext (by match a with | ⟨0, _⟩ => rfl | ⟨1, _⟩ => rfl | ⟨2, _⟩ => rfl)

/-- The projection at (b, s, r) reads V at (d, r). -/
theorem ridx4_eq (b : Fin 4) (s : Fin 4096) (r : Fin 8) (k : Fin 4096) :
    ridx_main_v4 (ix3 b s r) k = ix2 k r :=
  funext fun a => Fin.ext (by match a with | ⟨0, _⟩ => rfl | ⟨1, _⟩ => rfl)

/-! ## The reference is the specification -/

theorem ref_eq (X : (⟨S4x4096x4096, .f32⟩ : BufTy).Contents (Elt Ideal))
    (C : (⟨S4x4096x8, .f32⟩ : BufTy).Contents (Elt Ideal))
    (W : (⟨S4096x4096, .f32⟩ : BufTy).Contents (Elt Ideal))
    (Bv : (⟨S4096, .f32⟩ : BufTy).Contents (Elt Ideal))
    (U Vm : (⟨S4096x8, .f32⟩ : BufTy).Contents (Elt Ideal)) :
    Cert.ReferenceIdeal.Read.val_main_v9 (F := Ideal) X C W Bv U Vm = Cert.GatedLowRank.G X C W Bv U Vm := by
  funext i
  obtain ⟨b, s, o, rfl⟩ : ∃ (b : Fin 4) (s o : Fin 4096), i = ix3 b s o := ⟨i 0, i 1, i 2, eq_ix3 i⟩
  rw [val_main_v9_apply, val_main_v3_apply, val_main_v0_apply, val_main_v2_apply, val_main_v1_apply,
    val_main_v8_apply, val_main_v6_apply, val_main_v7_apply, val_main_cst_apply]
  simp only [val_main_v5_apply, val_main_v4_apply, lidx0_eq, ridx0_eq, idx12_eq, lidx6_eq, ridx6_eq, lidx4_eq,
    ridx4_eq, Ideal.addf_def, Ideal.mulf_def, Ideal.ofBits_def]
  show _ = Gat X C W Bv U Vm b s o
  unfold Gat
  rfl

end Cert.ReferenceIdeal.RefValue

end
-- ==== Proof.Pieces.lean ====
/-
  What the tiled program's body leaves behind at one grid point, as pure values.

  The grid is 16 x 4 x 8: for each 1024 x 1024 output block (i, j) the innermost axis k runs over eight blocks of
  512 of the contracted dimension.  The body keeps two accumulators across the k-steps: `base` (1024 x 1024), the
  running sum of x-block times W-block, and `low` (1024 x 8), the running sum of x-block times V-block.  At k = 0
  it first clears both; at every step it adds this step's two products; at k = 7 it also stores the output block,
    (base + bias) + ((low * codes) times U-block transposed) * 2.

  First part: for each of the three control cases (k = 0; 0 < k < 7; k = 7), what the case's stores leave in each
  accumulator and in the output block, as the body's arithmetic applied to the input blocks and to what the
  accumulators held before.  Second part: the same read point by point along the grid (`accs_first`,
  `accs_step`, `out_last`).  Everything here holds for any float instance.
-/
import proofs.«140376_j57226144252156_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]
variable (c : Dev nD) (i : grid0.Coords)
  (a3 : Memref sig .tc .vmem S1024x512 .f32) (h3 : a3.IsWhole) (a4 : Memref sig .tc .vmem S1024x512 .f32) (h4 : a4.IsWhole)
  (a5 : Memref sig .tc .vmem S512x8 .f32) (h5 : a5.IsWhole) (a6 : Memref sig .tc .vmem S1024x8 .f32) (h6 : a6.IsWhole)
  (a7 : Memref sig .tc .vmem S1024x8 .f32) (h7 : a7.IsWhole) (a8 : Memref sig .tc .vmem S1x1024 .f32) (h8 : a8.IsWhole)
  (a9 : Memref sig .tc .vmem S1024x1024 .f32) (h9 : a9.IsWhole) (a10 : Memref sig .tc .vmem S1024x1024 .f32) (h10 : a10.IsWhole)
  (a11 : Memref sig .tc .vmem S1024x8 .f32) (h11 : a11.IsWhole)
  (x0 x1 : Vec F S1024x512 .f32) (x2 : Vec F S512x8 .f32) (x3 x4 : Vec F S1024x8 .f32) (x5 : Vec F S1x1024 .f32)
  (xs0 : Vec F S1024x1024 .f32) (xs1 : Vec F S1024x8 .f32)

theorem hz : (![0, 0] : Fin 2 → Nat) = fun _ => 0 := funext fun a => by fin_cases a <;> rfl

/-! ## What each control case leaves in the two accumulators and in the output block

Generic in the float instance. Each case's stores were found as lists of pieces; a list whose last store covers
the whole buffer reads back as that store's value, and the loads that fed it read the whole staging buffers. -/

/-- A middle step (0 < k < 7) leaves in the base accumulator the old contents plus this step's product. -/
theorem accBase_B (hc0 : ¬cond0_0 i) (hc1 : ¬cond0_1 i) :
    sout0_B_0 c i a3 h3 a4 h4 a5 h5 a6 h6 a7 h7 a8 h8 a9 h9 a10 h10 a11 h11 hc0 hc1 x0 x1 x2 x3 x4 x5 xs0 xs1 = k0_pay4 x0 x1 xs0 := by
  unfold sout0_B_0
  rw [View.read_writes_eq_canon _ _ _ (scover0_B_0 c i a3 h3 a4 h4 a5 h5 a6 h6 a7 h7 a8 h8 a9 h9 a10 h10 a11 h11 hc0 hc1 x0 x1 x2 x3 x4 x5 xs0 xs1)]
  unfold kernelRun0_B
  dsimp only
  rw [View.canon_unit_zero hz]
  simp only [View.readAt_eq_ld, h3.read_unread, h4.read_unread, h10.read_unread, View.ld_unit_zero (S := S1024x512) hz,
    View.ld_unit_zero (S := S1024x1024) hz]

/-- A middle step leaves in the low-rank accumulator the old contents plus this step's product. -/
theorem accLow_B (hc0 : ¬cond0_0 i) (hc1 : ¬cond0_1 i) :
    sout0_B_1 c i a3 h3 a4 h4 a5 h5 a6 h6 a7 h7 a8 h8 a9 h9 a10 h10 a11 h11 hc0 hc1 x0 x1 x2 x3 x4 x5 xs0 xs1 = k0_pay5 x0 x2 xs1 := by
  unfold sout0_B_1
  rw [View.read_writes_eq_canon _ _ _ (scover0_B_1 c i a3 h3 a4 h4 a5 h5 a6 h6 a7 h7 a8 h8 a9 h9 a10 h10 a11 h11 hc0 hc1 x0 x1 x2 x3 x4 x5 xs0 xs1)]
  unfold kernelRun0_B
  dsimp only
  rw [View.canon_unit_zero hz]
  simp only [View.readAt_eq_ld, h3.read_unread, h5.read_unread, h11.read_unread, View.ld_unit_zero (S := S1024x512) hz,
    View.ld_unit_zero (S := S512x8) hz, View.ld_unit_zero (S := S1024x8) hz]

/-- The last step (k = 7) updates the base accumulator in the same way. -/
theorem accBase_C (hc0 : ¬cond0_0 i) (hc1 : cond0_1 i) :
    sout0_C_0 c i a3 h3 a4 h4 a5 h5 a6 h6 a7 h7 a8 h8 a9 h9 a10 h10 a11 h11 hc0 hc1 x0 x1 x2 x3 x4 x5 xs0 xs1 = k0_pay4 x0 x1 xs0 := by
  unfold sout0_C_0
  rw [View.read_writes_eq_canon _ _ _ (scover0_C_0 c i a3 h3 a4 h4 a5 h5 a6 h6 a7 h7 a8 h8 a9 h9 a10 h10 a11 h11 hc0 hc1 x0 x1 x2 x3 x4 x5 xs0 xs1)]
  unfold kernelRun0_C
  dsimp only
  sl_unfold_words
  rw [View.canon_unit_zero hz]
  simp only [View.readAt_eq_ld, h3.read_unread, h4.read_unread, h10.read_unread, View.ld_unit_zero (S := S1024x512) hz,
    View.ld_unit_zero (S := S1024x1024) hz]

/-- The last step updates the low-rank accumulator in the same way. -/
theorem accLow_C (hc0 : ¬cond0_0 i) (hc1 : cond0_1 i) :
    sout0_C_1 c i a3 h3 a4 h4 a5 h5 a6 h6 a7 h7 a8 h8 a9 h9 a10 h10 a11 h11 hc0 hc1 x0 x1 x2 x3 x4 x5 xs0 xs1 = k0_pay5 x0 x2 xs1 := by
  unfold sout0_C_1
  rw [View.read_writes_eq_canon _ _ _ (scover0_C_1 c i a3 h3 a4 h4 a5 h5 a6 h6 a7 h7 a8 h8 a9 h9 a10 h10 a11 h11 hc0 hc1 x0 x1 x2 x3 x4 x5 xs0 xs1)]
  unfold kernelRun0_C
  dsimp only
  sl_unfold_words
  rw [View.canon_unit_zero hz]
  simp only [View.readAt_eq_ld, h3.read_unread, h5.read_unread, h11.read_unread, View.ld_unit_zero (S := S1024x512) hz,
    View.ld_unit_zero (S := S512x8) hz, View.ld_unit_zero (S := S1024x8) hz]

/-- The first step (k = 0) stores zeros, reads them back, and leaves zero plus the first product. -/
theorem accBase_A (hc0 : cond0_0 i) (hc1 : ¬cond0_1 i) :
    sout0_A_0 c i a3 h3 a4 h4 a5 h5 a6 h6 a7 h7 a8 h8 a9 h9 a10 h10 a11 h11 hc0 hc1 x0 x1 x2 x3 x4 x5 = k0_pay4 x0 x1 k0_pay1 := by
  unfold sout0_A_0
  rw [View.read_writes_eq_canon _ _ _ (scover0_A_0 c i a3 h3 a4 h4 a5 h5 a6 h6 a7 h7 a8 h8 a9 h9 a10 h10 a11 h11 hc0 hc1 x0 x1 x2 x3 x4 x5)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x512) hz,
    View.ld_unit_zero (S := S1024x1024) hz]

theorem accLow_A (hc0 : cond0_0 i) (hc1 : ¬cond0_1 i) :
    sout0_A_1 c i a3 h3 a4 h4 a5 h5 a6 h6 a7 h7 a8 h8 a9 h9 a10 h10 a11 h11 hc0 hc1 x0 x1 x2 x3 x4 x5 = k0_pay5 x0 x2 k0_pay2 := by
  unfold sout0_A_1
  rw [View.read_writes_eq_canon _ _ _ (scover0_A_1 c i a3 h3 a4 h4 a5 h5 a6 h6 a7 h7 a8 h8 a9 h9 a10 h10 a11 h11 hc0 hc1 x0 x1 x2 x3 x4 x5)]
  unfold kernelRun0_A
  dsimp only
  sl_unfold_words
  rw [View.canon_cons_unit_zero (S := S1024x8) hz, View.readCov_unit_zero (S := S1024x8) _ hz]
  simp only [View.readAt_eq_ld, h3.read_unread, h5.read_unread, View.ld_unit_zero (S := S1024x512) hz,
    View.ld_unit_zero (S := S512x8) hz, View.ld_unit_zero (S := S1024x8) hz]

/-- The last step stores the output block: the epilogue applied to the two accumulators as this step leaves them. -/
theorem outBlock_C (hc0 : ¬cond0_0 i) (hc1 : cond0_1 i) :
    out0_C_6 c i a3 h3 a4 h4 a5 h5 a6 h6 a7 h7 a8 h8 a9 h9 a10 h10 a11 h11 hc0 hc1 x0 x1 x2 x3 x4 x5 xs0 xs1 = k0_pay6 (k0_pay5 x0 x2 xs1) x4 x3 (k0_pay4 x0 x1 xs0) x5 := by
  unfold out0_C_6
  rw [View.read_writes_eq_canon _ _ _ (cover0_C_6 c i a3 h3 a4 h4 a5 h5 a6 h6 a7 h7 a8 h8 a9 h9 a10 h10 a11 h11 hc0 hc1 x0 x1 x2 x3 x4 x5 xs0 xs1)]
  unfold kernelRun0_C
  dsimp only
  sl_unfold_words
  rw [View.canon_unit_zero hz, View.readCov_unit_zero (S := S1024x8) _ hz, View.readCov_unit_zero (S := S1024x1024) _ hz]
  simp only [View.readAt_eq_ld, h3.read_unread, h4.read_unread, h5.read_unread, h6.read_unread, h7.read_unread, h8.read_unread,
    h10.read_unread, h11.read_unread, View.ld_unit_zero (S := S1024x512) hz, View.ld_unit_zero (S := S512x8) hz,
    View.ld_unit_zero (S := S1024x8) hz, View.ld_unit_zero (S := S1024x1024) hz, View.ld_unit_zero (S := S1x1024) hz]

/-! ## Point by point -/

variable (m : (ℓ : Loc nD τ sig) → Buf (Elt F) ℓ)

/-- The six input blocks at a grid point: x (i, k), W (j, k), V (k, 0), U (j, 0), codes (i, 0), bias (0, j). -/
abbrev xB (c : Dev nD) (t : Fin cfg0.N) : Vec F S1024x512 .f32 := iblk m c 0 t
abbrev wB (c : Dev nD) (t : Fin cfg0.N) : Vec F S1024x512 .f32 := iblk m c 1 t
abbrev vB (c : Dev nD) (t : Fin cfg0.N) : Vec F S512x8 .f32 := iblk m c 2 t
abbrev uB (c : Dev nD) (t : Fin cfg0.N) : Vec F S1024x8 .f32 := iblk m c 3 t
abbrev cB (c : Dev nD) (t : Fin cfg0.N) : Vec F S1024x8 .f32 := iblk m c 4 t
abbrev bB (c : Dev nD) (t : Fin cfg0.N) : Vec F S1x1024 .f32 := iblk m c 5 t

/-- What the point before left in the two accumulators. -/
abbrev prevBase (c : Dev nD) (t : Fin cfg0.N) : Vec F S1024x1024 .f32 :=
  (outsAt0 m c (t.val - 1) (Nat.lt_of_le_of_lt (Nat.sub_le _ _) t.isLt)).2.1
abbrev prevLow (c : Dev nD) (t : Fin cfg0.N) : Vec F S1024x8 .f32 :=
  (outsAt0 m c (t.val - 1) (Nat.lt_of_le_of_lt (Nat.sub_le _ _) t.isLt)).2.2

/-- At a point with k = 0 the accumulators end at zero plus the first products. -/
theorem accs_first (c : Dev nD) (t : Fin cfg0.N) (h0 : t.val % 8 = 0) :
    (outsAt0 m c t.val t.isLt).2.1 = k0_pay4 (xB m c t) (wB m c t) k0_pay1
      ∧ (outsAt0 m c t.val t.isLt).2.2 = k0_pay5 (xB m c t) (vB m c t) k0_pay2 := by
  have h1 : ¬t.val % 8 = 7 := by omega
  have e := outsAt0_A m c t h0 h1
  have eb := congrArg (fun p => p.2.1) e
  have el := congrArg (fun p => p.2.2) e
  dsimp only at eb el
  have pb := accBase_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (xB m c t) (wB m c t) (vB m c t) (uB m c t) (cB m c t) (bB m c t) ((hcond0_0 t).mpr h0) (fun h => h1 ((hcond0_1 t).mp h))
  have pl := accLow_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (xB m c t) (wB m c t) (vB m c t) (uB m c t) (cB m c t) (bB m c t) ((hcond0_0 t).mpr h0) (fun h => h1 ((hcond0_1 t).mp h))
  exact ⟨eb.trans pb, el.trans pl⟩

/-- At a point with k > 0 each accumulator ends at what the point before left plus this step's product. -/
theorem accs_step (c : Dev nD) (t : Fin cfg0.N) (h0 : ¬t.val % 8 = 0) :
    (outsAt0 m c t.val t.isLt).2.1 = k0_pay4 (xB m c t) (wB m c t) (prevBase m c t)
      ∧ (outsAt0 m c t.val t.isLt).2.2 = k0_pay5 (xB m c t) (vB m c t) (prevLow m c t) := by
  by_cases h1 : t.val % 8 = 7
  · have e := outsAt0_C m c t h0 h1
    have eb := congrArg (fun p => p.2.1) e
    have el := congrArg (fun p => p.2.2) e
    dsimp only at eb el
    have pb := accBase_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (xB m c t) (wB m c t) (vB m c t) (uB m c t) (cB m c t) (bB m c t) (prevBase m c t) (prevLow m c t) (fun h => h0 ((hcond0_0 t).mp h)) ((hcond0_1 t).mpr h1)
    have pl := accLow_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (xB m c t) (wB m c t) (vB m c t) (uB m c t) (cB m c t) (bB m c t) (prevBase m c t) (prevLow m c t) (fun h => h0 ((hcond0_0 t).mp h)) ((hcond0_1 t).mpr h1)
    exact ⟨eb.trans pb, el.trans pl⟩
  · have e := outsAt0_B m c t h0 h1
    have eb := congrArg (fun p => p.2.1) e
    have el := congrArg (fun p => p.2.2) e
    dsimp only at eb el
    have pb := accBase_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (xB m c t) (wB m c t) (vB m c t) (uB m c t) (cB m c t) (bB m c t) (prevBase m c t) (prevLow m c t) (fun h => h0 ((hcond0_0 t).mp h)) (fun h => h1 ((hcond0_1 t).mp h))
    have pl := accLow_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (xB m c t) (wB m c t) (vB m c t) (uB m c t) (cB m c t) (bB m c t) (prevBase m c t) (prevLow m c t) (fun h => h0 ((hcond0_0 t).mp h)) (fun h => h1 ((hcond0_1 t).mp h))
    exact ⟨eb.trans pb, el.trans pl⟩

/-- At a point with k = 7 the output block is the epilogue of the two accumulators as that point leaves them. -/
theorem out_last (c : Dev nD) (t : Fin cfg0.N) (h1 : t.val % 8 = 7) :
    (outsAt0 m c t.val t.isLt).1
      = k0_pay6 (outsAt0 m c t.val t.isLt).2.2 (cB m c t) (uB m c t) (outsAt0 m c t.val t.isLt).2.1 (bB m c t) := by
  have h0 : ¬t.val % 8 = 0 := by omega
  have hs := accs_step m c t h0
  have eo := congrArg (fun p => p.1) (outsAt0_C m c t h0 h1)
  dsimp only at eo
  have po := outBlock_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (xB m c t) (wB m c t) (vB m c t) (uB m c t) (cB m c t) (bB m c t) (prevBase m c t) (prevLow m c t) (fun h => h0 ((hcond0_0 t).mp h)) ((hcond0_1 t).mpr h1)
  rw [hs.1, hs.2]
  exact eo.trans po

end Cert.KernelIdeal.Pieces

end
-- ==== Proof.Payloads.lean ====
/-
  The kernel body's five stored values, read at one index, over the extended reals.

  Every float operation is exact there and a change of float format is the identity, so each value is a small closed
  expression of the operands' entries:

    * the two initial stores are the zero matrix;
    * the two accumulation steps add one block of a contraction: acc[r, q] + Σ_l a[r, l] · b[q, l] (both operands
      contracted along their second axis) and acc[r, s] + Σ_l a[r, l] · b[l, s] (an ordinary matrix product);
    * the final store is (acc[r, q] + bias[0, q]) + (Σ_s (xv[r, s] · codes[r, s]) · u[q, s]) · 2.

  A contraction read at an output index is a sum over the contraction shape's index set; that shape has one axis, so the
  sum is re-indexed through the bijection with `Fin K`, and the operand indices are then read off coordinate by coordinate.
-/
import proofs.«140376_j57226144252156_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx
open scoped BigOperators

/-! ## The three contractions into the zero matrix -/

/-- Rows of `a` against rows of `b`, 512 columns each: entry (r, q) is Σ_l a[r, l] · b[q, l]. -/
theorem dotRows512_apply {φ₁ φ₂ : FTy} (a : FVec Ideal S1024x512 φ₁) (b : FVec Ideal S1024x512 φ₂) (r : Fin 1024) (q : Fin 1024) :
    matmul (F := Ideal) dot_S1024x512_S1024x512_S1024x1024_1_1_0_0_n_n none a b
        (constant (F := Ideal) S1024x1024 .f32 0x00000000#32) (ix2 r q)
      = ∑ l : Fin 512, a (ix2 r l) * b (ix2 q l) := by
  refine (Ideal.matmul_constant_zero_apply dot_S1024x512_S1024x512_S1024x1024_1_1_0_0_n_n none a b (ix2 r q)).trans ?_
  rw [← Equiv.sum_comp (ValueIdx.contrEquiv1 dot_S1024x512_S1024x512_S1024x1024_1_1_0_0_n_n 512 rfl rfl).symm]
  refine Finset.sum_congr rfl fun k _ => ?_
  have hk := ValueIdx.contrEquiv1_symm_val dot_S1024x512_S1024x512_S1024x1024_1_1_0_0_n_n 512 rfl rfl k
  have el : dot_S1024x512_S1024x512_S1024x1024_1_1_0_0_n_n.lhsIdx (ix2 r q)
      ((ValueIdx.contrEquiv1 dot_S1024x512_S1024x512_S1024x1024_1_1_0_0_n_n 512 rfl rfl).symm k) = ix2 r k :=
    funext fun c => Fin.ext (by
      match c with
      | ⟨0, _⟩ =>
        show (dot_S1024x512_S1024x512_S1024x1024_1_1_0_0_n_n.lhsIdx (ix2 r q) _ 0).val = r.val
        unfold DotDims.lhsIdx
        rw [dif_neg (show ¬(0 : Fin S1024x512.rank) ∈ dot_S1024x512_S1024x512_S1024x1024_1_1_0_0_n_n.lhsBatch by decide),
          dif_pos (show (0 : Fin S1024x512.rank) ∈ dot_S1024x512_S1024x512_S1024x1024_1_1_0_0_n_n.lhsNonContracting by decide)]
        rfl
      | ⟨1, _⟩ =>
        exact (dot_S1024x512_S1024x512_S1024x1024_1_1_0_0_n_n.lhsIdx_val_of_single rfl (ix2 r q) _).trans hk)
  have er : dot_S1024x512_S1024x512_S1024x1024_1_1_0_0_n_n.rhsIdx (ix2 r q)
      ((ValueIdx.contrEquiv1 dot_S1024x512_S1024x512_S1024x1024_1_1_0_0_n_n 512 rfl rfl).symm k) = ix2 q k :=
    funext fun c => Fin.ext (by
      match c with
      | ⟨0, _⟩ =>
        show (dot_S1024x512_S1024x512_S1024x1024_1_1_0_0_n_n.rhsIdx (ix2 r q) _ 0).val = q.val
        unfold DotDims.rhsIdx
        rw [dif_neg (show ¬(0 : Fin S1024x512.rank) ∈ dot_S1024x512_S1024x512_S1024x1024_1_1_0_0_n_n.rhsBatch by decide),
          dif_pos (show (0 : Fin S1024x512.rank) ∈ dot_S1024x512_S1024x512_S1024x1024_1_1_0_0_n_n.rhsNonContracting by decide)]
        rfl
      | ⟨1, _⟩ =>
        exact (dot_S1024x512_S1024x512_S1024x1024_1_1_0_0_n_n.rhsIdx_val_of_single rfl (ix2 r q) _).trans hk)
  rw [el, er]

/-- The matrix product of a [1024, 512] by a [512, 8] matrix: entry (r, s) is Σ_l a[r, l] · b[l, s]. -/
theorem dotRowCol512_apply {φ₁ φ₂ : FTy} (a : FVec Ideal S1024x512 φ₁) (b : FVec Ideal S512x8 φ₂) (r : Fin 1024) (s : Fin 8) :
    matmul (F := Ideal) dot_S1024x512_S512x8_S1024x8_1_0_0_1_n_n none a b
        (constant (F := Ideal) S1024x8 .f32 0x00000000#32) (ix2 r s)
      = ∑ l : Fin 512, a (ix2 r l) * b (ix2 l s) := by
  refine (Ideal.matmul_constant_zero_apply dot_S1024x512_S512x8_S1024x8_1_0_0_1_n_n none a b (ix2 r s)).trans ?_
  rw [← Equiv.sum_comp (ValueIdx.contrEquiv1 dot_S1024x512_S512x8_S1024x8_1_0_0_1_n_n 512 rfl rfl).symm]
  refine Finset.sum_congr rfl fun k _ => ?_
  have hk := ValueIdx.contrEquiv1_symm_val dot_S1024x512_S512x8_S1024x8_1_0_0_1_n_n 512 rfl rfl k
  have el : dot_S1024x512_S512x8_S1024x8_1_0_0_1_n_n.lhsIdx (ix2 r s)
      ((ValueIdx.contrEquiv1 dot_S1024x512_S512x8_S1024x8_1_0_0_1_n_n 512 rfl rfl).symm k) = ix2 r k :=
    funext fun c => Fin.ext (by
      match c with
      | ⟨0, _⟩ =>
        show (dot_S1024x512_S512x8_S1024x8_1_0_0_1_n_n.lhsIdx (ix2 r s) _ 0).val = r.val
        unfold DotDims.lhsIdx
        rw [dif_neg (show ¬(0 : Fin S1024x512.rank) ∈ dot_S1024x512_S512x8_S1024x8_1_0_0_1_n_n.lhsBatch by decide),
          dif_pos (show (0 : Fin S1024x512.rank) ∈ dot_S1024x512_S512x8_S1024x8_1_0_0_1_n_n.lhsNonContracting by decide)]
        rfl
      | ⟨1, _⟩ =>
        exact (dot_S1024x512_S512x8_S1024x8_1_0_0_1_n_n.lhsIdx_val_of_single rfl (ix2 r s) _).trans hk)
  have er : dot_S1024x512_S512x8_S1024x8_1_0_0_1_n_n.rhsIdx (ix2 r s)
      ((ValueIdx.contrEquiv1 dot_S1024x512_S512x8_S1024x8_1_0_0_1_n_n 512 rfl rfl).symm k) = ix2 k s :=
    funext fun c => Fin.ext (by
      match c with
      | ⟨0, _⟩ =>
        exact (dot_S1024x512_S512x8_S1024x8_1_0_0_1_n_n.rhsIdx_val_of_single rfl (ix2 r s) _).trans hk
      | ⟨1, _⟩ =>
        show (dot_S1024x512_S512x8_S1024x8_1_0_0_1_n_n.rhsIdx (ix2 r s) _ 1).val = s.val
        unfold DotDims.rhsIdx
        rw [dif_neg (show ¬(1 : Fin S512x8.rank) ∈ dot_S1024x512_S512x8_S1024x8_1_0_0_1_n_n.rhsBatch by decide),
          dif_pos (show (1 : Fin S512x8.rank) ∈ dot_S1024x512_S512x8_S1024x8_1_0_0_1_n_n.rhsNonContracting by decide)]
        rfl)
  rw [el, er]

/-- Rows of `a` against rows of `b`, 8 columns each: entry (r, q) is Σ_s a[r, s] · b[q, s]. -/
theorem dotRows8_apply {φ₁ φ₂ : FTy} (a : FVec Ideal S1024x8 φ₁) (b : FVec Ideal S1024x8 φ₂) (r : Fin 1024) (q : Fin 1024) :
    matmul (F := Ideal) dot_S1024x8_S1024x8_S1024x1024_1_1_0_0_n_n none a b
        (constant (F := Ideal) S1024x1024 .f32 0x00000000#32) (ix2 r q)
      = ∑ s : Fin 8, a (ix2 r s) * b (ix2 q s) := by
  refine (Ideal.matmul_constant_zero_apply dot_S1024x8_S1024x8_S1024x1024_1_1_0_0_n_n none a b (ix2 r q)).trans ?_
  rw [← Equiv.sum_comp (ValueIdx.contrEquiv1 dot_S1024x8_S1024x8_S1024x1024_1_1_0_0_n_n 8 rfl rfl).symm]
  refine Finset.sum_congr rfl fun k _ => ?_
  have hk := ValueIdx.contrEquiv1_symm_val dot_S1024x8_S1024x8_S1024x1024_1_1_0_0_n_n 8 rfl rfl k
  have el : dot_S1024x8_S1024x8_S1024x1024_1_1_0_0_n_n.lhsIdx (ix2 r q)
      ((ValueIdx.contrEquiv1 dot_S1024x8_S1024x8_S1024x1024_1_1_0_0_n_n 8 rfl rfl).symm k) = ix2 r k :=
    funext fun c => Fin.ext (by
      match c with
      | ⟨0, _⟩ =>
        show (dot_S1024x8_S1024x8_S1024x1024_1_1_0_0_n_n.lhsIdx (ix2 r q) _ 0).val = r.val
        unfold DotDims.lhsIdx
        rw [dif_neg (show ¬(0 : Fin S1024x8.rank) ∈ dot_S1024x8_S1024x8_S1024x1024_1_1_0_0_n_n.lhsBatch by decide),
          dif_pos (show (0 : Fin S1024x8.rank) ∈ dot_S1024x8_S1024x8_S1024x1024_1_1_0_0_n_n.lhsNonContracting by decide)]
        rfl
      | ⟨1, _⟩ =>
        exact (dot_S1024x8_S1024x8_S1024x1024_1_1_0_0_n_n.lhsIdx_val_of_single rfl (ix2 r q) _).trans hk)
  have er : dot_S1024x8_S1024x8_S1024x1024_1_1_0_0_n_n.rhsIdx (ix2 r q)
      ((ValueIdx.contrEquiv1 dot_S1024x8_S1024x8_S1024x1024_1_1_0_0_n_n 8 rfl rfl).symm k) = ix2 q k :=
    funext fun c => Fin.ext (by
      match c with
      | ⟨0, _⟩ =>
        show (dot_S1024x8_S1024x8_S1024x1024_1_1_0_0_n_n.rhsIdx (ix2 r q) _ 0).val = q.val
        unfold DotDims.rhsIdx
        rw [dif_neg (show ¬(0 : Fin S1024x8.rank) ∈ dot_S1024x8_S1024x8_S1024x1024_1_1_0_0_n_n.rhsBatch by decide),
          dif_pos (show (0 : Fin S1024x8.rank) ∈ dot_S1024x8_S1024x8_S1024x1024_1_1_0_0_n_n.rhsNonContracting by decide)]
        rfl
      | ⟨1, _⟩ =>
        exact (dot_S1024x8_S1024x8_S1024x1024_1_1_0_0_n_n.rhsIdx_val_of_single rfl (ix2 r q) _).trans hk)
  rw [el, er]

/-! ## The payloads -/

/-- The first initial store: the zero matrix. -/
theorem pay1_apply (j : S1024x1024.Idx) : k0_pay1 (F := Ideal) j = 0 := by
  unfold k0_pay1
  rw [shapeCast_self]
  exact Ideal.ofBits_zero_f32

/-- The second initial store: the zero matrix. -/
theorem pay2_apply (j : S1024x8.Idx) : k0_pay2 (F := Ideal) j = 0 := by
  unfold k0_pay2
  rw [shapeCast_self]
  exact Ideal.ofBits_zero_f32

/-- One accumulation step of the dense term: the accumulator plus this block's 512 products. -/
theorem pay4_apply (x0 x1 : Vec Ideal S1024x512 .f32) (acc : Vec Ideal S1024x1024 .f32) (r q : Fin 1024) :
    k0_pay4 x0 x1 acc (ix2 r q) = acc (ix2 r q) + ∑ l : Fin 512, x0 (ix2 r l) * x1 (ix2 q l) := by
  unfold k0_pay4 k0_pay3
  rw [shapeCast_self, shapeCast_self]
  refine (addf_apply _ _ _).trans ?_
  refine congrArg (acc (ix2 r q) + ·) ?_
  exact dotRows512_apply _ _ r q

/-- One accumulation step of the low-rank projection: the accumulator plus this block's 512 products. -/
theorem pay5_apply (x0 : Vec Ideal S1024x512 .f32) (x2 : Vec Ideal S512x8 .f32) (acc : Vec Ideal S1024x8 .f32)
    (r : Fin 1024) (s : Fin 8) :
    k0_pay5 x0 x2 acc (ix2 r s) = acc (ix2 r s) + ∑ l : Fin 512, x0 (ix2 r l) * x2 (ix2 l s) := by
  unfold k0_pay5 k0_pay3
  rw [shapeCast_self, shapeCast_self]
  refine (addf_apply _ _ _).trans ?_
  refine congrArg (acc (ix2 r s) + ·) ?_
  exact dotRowCol512_apply _ _ r s

/-- The final store: the dense term plus the bias, plus twice the gated low-rank term. -/
theorem pay6_apply (xv codes u : Vec Ideal S1024x8 .f32) (accb : Vec Ideal S1024x1024 .f32) (bias : Vec Ideal S1x1024 .f32)
    (r q : Fin 1024) :
    k0_pay6 xv codes u accb bias (ix2 r q)
      = (accb (ix2 r q) + bias (ix2 0 q))
        + (∑ s : Fin 8, (xv (ix2 r s) * codes (ix2 r s)) * u (ix2 q s)) * Ideal.ofBits .f32 0x40000000#32 := by
  unfold k0_pay6
  rw [shapeCast_self, shapeCast_self]
  refine (addf_apply _ _ _).trans ?_
  have hb : broadcastTo S1024x1024 bias broadcasts_S1x1024_S1024x1024 (ix2 r q) = bias (ix2 0 q) :=
    broadcastTo_apply bias broadcasts_S1x1024_S1024x1024 (ix2 r q) (ix2 0 q) (fun c => by
      match c with
      | ⟨0, _⟩ => show (0 : Nat) = if (1 : Nat) = 1 then 0 else r.val; rw [if_pos rfl]
      | ⟨1, _⟩ => show q.val = if (1024 : Nat) = 1 then 0 else q.val; rw [if_neg (by decide)])
  have hm := dotRows8_apply (truncf .bf16 (mulf xv codes) bitsLt_bf16_f32) (truncf .bf16 u bitsLt_bf16_f32) r q
  refine congrArg₂ (· + ·) ?_ ?_
  · refine (addf_apply _ _ _).trans ?_
    exact congrArg (accb (ix2 r q) + ·) hb
  · refine (mulf_apply _ _ _).trans ?_
    refine congrArg (· * Ideal.ofBits .f32 0x40000000#32) ?_
    exact hm

end Cert.KernelIdeal.Payload

end
-- ==== Proof.Blocks.lean ====
/-
  What the tiled program reads at a grid point, and what the reshaped arrays hold when the tiled region starts.

  The grid has 16 x 4 x 8 = 512 points; point t has coordinates (i, j, k) = (t / 32, (t / 8) % 4, t % 8).
  At that point the six input blocks are

      x (rows flattened, 16384 x 4096)  : rows 1024 i .. 1024 i + 1023, columns 512 k .. 512 k + 511,
      W (4096 x 4096)                   : rows 1024 j .. 1024 j + 1023, columns 512 k .. 512 k + 511,
      V (4096 x 8)                      : rows 512 k .. 512 k + 511, all 8 columns,
      U (4096 x 8)                      : rows 1024 j .. 1024 j + 1023, all 8 columns,
      codes (rows flattened, 16384 x 8) : rows 1024 i .. 1024 i + 1023, all 8 columns,
      bias (as one row, 1 x 4096)       : columns 1024 j .. 1024 j + 1023.

  Each block's entry at a coordinate inside the block is the array's entry at
  (block index) x (block extent) + (that coordinate), axis by axis; the block indices are read off the index
  maps once, by evaluating them at all 512 points.  The entries are stated through `nat2`, an entry at
  natural-number coordinates, so that they meet the partial sums of the specification without carrying bounds.

  The flattened x, the flattened codes and the one-row bias are reshapes of the three-axis x, the three-axis
  codes and the bias vector; no other operation before the region writes them.
-/
import proofs.«140376_j57226144252156_1_alg».proof.Proof.Gen.KernelIdeal.Frame
import proofs.«140376_j57226144252156_1_alg».proof.Proof.Spec
import Idealize.ShloMosaic.Lib.Pipeline.Value
import Idealize.ShloMosaic.Lib.StableHlo.Run
import Idealize.ShloMosaic.Lib.Tactic

set_option maxRecDepth 16384

noncomputable section

namespace Cert.KernelIdeal.Blocks

open Cert.KernelIdeal Cert.KernelIdeal.Gen Cert.GatedLowRank
open Idealize.ShloMosaic Idealize.ShloMosaic.ValueIdx Idealize.ShloMosaic.TcCoe Idealize.SL.Sem

variable (m : (ℓ : Loc nD τ sig) → Buf (Elt Ideal) ℓ) (c : Dev nD) (t : Fin cfg0.N)

/-! ## The block indices at a grid point -/

/-- A grid point is below 512. -/
theorem t_lt : t.val < 512 := Nat.lt_of_lt_of_eq t.isLt N_0

/-- The x block at point t: block row t / 32, block column t % 8. -/
theorem idx0 : ∀ t : Fin cfg0.N, win0_0.index t 0 = t.val / 32 ∧ win0_0.index t 1 = t.val % 8 :=
  (by decide +kernel : ∀ t : Fin grid0.N, win0_0.index t 0 = t.val / 32 ∧ win0_0.index t 1 = t.val % 8)

/-- The W block: block row (t / 8) % 4, block column t % 8. -/
theorem idx1 : ∀ t : Fin cfg0.N, win0_1.index t 0 = t.val / 8 % 4 ∧ win0_1.index t 1 = t.val % 8 :=
  (by decide +kernel : ∀ t : Fin grid0.N, win0_1.index t 0 = t.val / 8 % 4 ∧ win0_1.index t 1 = t.val % 8)

/-- The V block: block row t % 8, the only block column. -/
theorem idx2 : ∀ t : Fin cfg0.N, win0_2.index t 0 = t.val % 8 ∧ win0_2.index t 1 = 0 :=
  (by decide +kernel : ∀ t : Fin grid0.N, win0_2.index t 0 = t.val % 8 ∧ win0_2.index t 1 = 0)

/-- The U block: block row (t / 8) % 4, the only block column. -/
theorem idx3 : ∀ t : Fin cfg0.N, win0_3.index t 0 = t.val / 8 % 4 ∧ win0_3.index t 1 = 0 :=
  (by decide +kernel : ∀ t : Fin grid0.N, win0_3.index t 0 = t.val / 8 % 4 ∧ win0_3.index t 1 = 0)

/-- The codes block: block row t / 32, the only block column. -/
theorem idx4 : ∀ t : Fin cfg0.N, win0_4.index t 0 = t.val / 32 ∧ win0_4.index t 1 = 0 :=
  (by decide +kernel : ∀ t : Fin grid0.N, win0_4.index t 0 = t.val / 32 ∧ win0_4.index t 1 = 0)

/-- The bias block: the only block row, block column (t / 8) % 4. -/
theorem idx5 : ∀ t : Fin cfg0.N, win0_5.index t 0 = 0 ∧ win0_5.index t 1 = t.val / 8 % 4 :=
  (by decide +kernel : ∀ t : Fin grid0.N, win0_5.index t 0 = 0 ∧ win0_5.index t 1 = t.val / 8 % 4)

/-! ## The blocks' entries -/

/-- Entry (r, l) of the x block is x2[1024 (t / 32) + r, 512 (t % 8) + l]. -/
theorem iblk0_apply (r : Fin 1024) (l : Fin 512) :
    (iblk m c 0 t : Vec Ideal S1024x512 .f32) (ix2 r l)
      = nat2 (V m c main_v0 : Mat 16384 4096) (t.val / 32 * 1024 + r.val) (t.val % 8 * 512 + l.val) := by
  have ht := t_lt t
  have hr := r.isLt
  have hl := l.isLt
  unfold iblk
  rw [View.read_apply]
  rw [nat2_of_lt _ (by omega) (by omega)]
  show (V m c main_v0 : Mat 16384 4096) _ = (V m c main_v0 : Mat 16384 4096) _
  refine congrArg (V m c main_v0 : Mat 16384 4096) (funext fun a => Fin.ext ?_)
  match a with
  | ⟨0, _⟩ => show win0_0.index t 0 * 1024 + 1 * r.val = _; rw [(idx0 t).1]; show _ = t.val / 32 * 1024 + r.val; omega
  | ⟨1, _⟩ => show win0_0.index t 1 * 512 + 1 * l.val = _; rw [(idx0 t).2]; show _ = t.val % 8 * 512 + l.val; omega

/-- Entry (q, l) of the W block is W[1024 ((t / 8) % 4) + q, 512 (t % 8) + l]. -/
theorem iblk1_apply (q : Fin 1024) (l : Fin 512) :
    (iblk m c 1 t : Vec Ideal S1024x512 .f32) (ix2 q l)
      = nat2 (V m c main_arg2 : Mat 4096 4096) (t.val / 8 % 4 * 1024 + q.val) (t.val % 8 * 512 + l.val) := by
  have ht := t_lt t
  have hq := q.isLt
  have hl := l.isLt
  unfold iblk
  rw [View.read_apply]
  rw [nat2_of_lt _ (by omega) (by omega)]
  show (V m c main_arg2 : Mat 4096 4096) _ = (V m c main_arg2 : Mat 4096 4096) _
  refine congrArg (V m c main_arg2 : Mat 4096 4096) (funext fun a => Fin.ext ?_)
  match a with
  | ⟨0, _⟩ => show win0_1.index t 0 * 1024 + 1 * q.val = _; rw [(idx1 t).1]; show _ = t.val / 8 % 4 * 1024 + q.val; omega
  | ⟨1, _⟩ => show win0_1.index t 1 * 512 + 1 * l.val = _; rw [(idx1 t).2]; show _ = t.val % 8 * 512 + l.val; omega

/-- Entry (l, s) of the V block is V[512 (t % 8) + l, s]. -/
theorem iblk2_apply (l : Fin 512) (s : Fin 8) :
    (iblk m c 2 t : Vec Ideal S512x8 .f32) (ix2 l s)
      = nat2 (V m c main_arg5 : Mat 4096 8) (t.val % 8 * 512 + l.val) s.val := by
  have ht := t_lt t
  have hl := l.isLt
  have hs := s.isLt
  unfold iblk
  rw [View.read_apply]
  rw [nat2_of_lt _ (by omega) (by omega)]
  show (V m c main_arg5 : Mat 4096 8) _ = (V m c main_arg5 : Mat 4096 8) _
  refine congrArg (V m c main_arg5 : Mat 4096 8) (funext fun a => Fin.ext ?_)
  match a with
  | ⟨0, _⟩ => show win0_2.index t 0 * 512 + 1 * l.val = _; rw [(idx2 t).1]; show _ = t.val % 8 * 512 + l.val; omega
  | ⟨1, _⟩ => show win0_2.index t 1 * 8 + 1 * s.val = _; rw [(idx2 t).2]; show _ = s.val; omega

/-- Entry (q, s) of the U block is U[1024 ((t / 8) % 4) + q, s]. -/
theorem iblk3_apply (q : Fin 1024) (s : Fin 8) :
    (iblk m c 3 t : Vec Ideal S1024x8 .f32) (ix2 q s)
      = nat2 (V m c main_arg4 : Mat 4096 8) (t.val / 8 % 4 * 1024 + q.val) s.val := by
  have ht := t_lt t
  have hq := q.isLt
  have hs := s.isLt
  unfold iblk
  rw [View.read_apply]
  rw [nat2_of_lt _ (by omega) (by omega)]
  show (V m c main_arg4 : Mat 4096 8) _ = (V m c main_arg4 : Mat 4096 8) _
  refine congrArg (V m c main_arg4 : Mat 4096 8) (funext fun a => Fin.ext ?_)
  match a with
  | ⟨0, _⟩ => show win0_3.index t 0 * 1024 + 1 * q.val = _; rw [(idx3 t).1]; show _ = t.val / 8 % 4 * 1024 + q.val; omega
  | ⟨1, _⟩ => show win0_3.index t 1 * 8 + 1 * s.val = _; rw [(idx3 t).2]; show _ = s.val; omega

/-- Entry (r, s) of the codes block is codes2[1024 (t / 32) + r, s]. -/
theorem iblk4_apply (r : Fin 1024) (s : Fin 8) :
    (iblk m c 4 t : Vec Ideal S1024x8 .f32) (ix2 r s)
      = nat2 (V m c main_v1 : Mat 16384 8) (t.val / 32 * 1024 + r.val) s.val := by
  have ht := t_lt t
  have hr := r.isLt
  have hs := s.isLt
  unfold iblk
  rw [View.read_apply]
  rw [nat2_of_lt _ (by omega) (by omega)]
  show (V m c main_v1 : Mat 16384 8) _ = (V m c main_v1 : Mat 16384 8) _
  refine congrArg (V m c main_v1 : Mat 16384 8) (funext fun a => Fin.ext ?_)
  match a with
  | ⟨0, _⟩ => show win0_4.index t 0 * 1024 + 1 * r.val = _; rw [(idx4 t).1]; show _ = t.val / 32 * 1024 + r.val; omega
  | ⟨1, _⟩ => show win0_4.index t 1 * 8 + 1 * s.val = _; rw [(idx4 t).2]; show _ = s.val; omega

/-- Entry (0, q) of the bias block is bias2[0, 1024 ((t / 8) % 4) + q]. -/
theorem iblk5_apply (q : Fin 1024) :
    (iblk m c 5 t : Vec Ideal S1x1024 .f32) (ix2 0 q)
      = nat2 (V m c main_v2 : Mat 1 4096) 0 (t.val / 8 % 4 * 1024 + q.val) := by
  have ht := t_lt t
  have hq := q.isLt
  unfold iblk
  rw [View.read_apply]
  rw [nat2_of_lt _ (by omega) (by omega)]
  show (V m c main_v2 : Mat 1 4096) _ = (V m c main_v2 : Mat 1 4096) _
  refine congrArg (V m c main_v2 : Mat 1 4096) (funext fun a => Fin.ext ?_)
  match a with
  | ⟨0, _⟩ => show win0_5.index t 0 * 1 + 1 * 0 = 0; rw [(idx5 t).1]
  | ⟨1, _⟩ => show win0_5.index t 1 * 1024 + 1 * q.val = _; rw [(idx5 t).2]; show _ = t.val / 8 % 4 * 1024 + q.val; omega

/-! ## The reshaped arrays at the start of the region -/

/-- The flattened x is the reshape of the three-axis x. -/
theorem V_v0 : (V m c main_v0 : Mat 16384 4096)
    = shapeCast S16384x4096 (m ((c : Thread nD τ).loc main_arg0)) shapeCasts_S4x4096x4096_S16384x4096 := by
  show StableHlo.after hostOps0 (fun b => m (c, b)) (Proc.devRef .tc main_v0) = _
  after_results
  rfl

/-- The flattened codes are the reshape of the three-axis codes. -/
theorem V_v1 : (V m c main_v1 : Mat 16384 8)
    = shapeCast S16384x8 (m ((c : Thread nD τ).loc main_arg1)) shapeCasts_S4x4096x8_S16384x8 := by
  show StableHlo.after hostOps0 (fun b => m (c, b)) (Proc.devRef .tc main_v1) = _
  after_results
  rfl

/-- The one-row bias is the reshape of the bias vector. -/
theorem V_v2 : (V m c main_v2 : Mat 1 4096)
    = shapeCast S1x4096 (m ((c : Thread nD τ).loc main_arg3)) shapeCasts_S4096_S1x4096 := by
  show StableHlo.after hostOps0 (fun b => m (c, b)) (Proc.devRef .tc main_v2) = _
  after_results
  rfl

end Cert.KernelIdeal.Blocks

end
-- ==== Proof.Acc.lean ====
/-
  The two accumulators along the grid, and the output block, as entries of the arrays.

  Point t of the 16 x 4 x 8 grid has coordinates (i, j, k) = (t / 32, (t / 8) % 4, t % 8).  After the body at t,

      base[r, q] = Σ over the first k + 1 blocks of 512 of  x[1024 i + r, ·] · W[1024 j + q, ·],
      low[r, s]  = Σ over the first k + 1 blocks of 512 of  x[1024 i + r, ·] · V[·, s],

  by induction on t: at k = 0 the accumulators are cleared and receive the first block's products; at k > 0 the
  point before has the same (i, j) and k - 1, and the body adds block k.  At k = 7 all eight blocks are in, the
  partial sums are the whole contractions over 4096, and the stored output block is the specification's flattened
  result at row 1024 i + r, column 1024 j + q.  Only regrouping of finite sums of extended reals is used.
-/
import proofs.«140376_j57226144252156_1_alg».proof.Proof.Pieces
import proofs.«140376_j57226144252156_1_alg».proof.Proof.Payloads
import proofs.«140376_j57226144252156_1_alg».proof.Proof.Blocks
import proofs.«140376_j57226144252156_1_alg».proof.Proof.Spec

set_option maxRecDepth 16384

noncomputable section

namespace Cert.KernelIdeal.Acc

open Cert.KernelIdeal Cert.KernelIdeal.Gen Cert.KernelIdeal.Pieces Cert.KernelIdeal.Payload Cert.KernelIdeal.Blocks
open Cert.GatedLowRank
open Idealize.ShloMosaic Idealize.ShloMosaic.ValueIdx Idealize.ShloMosaic.TcCoe Idealize.SL.Sem
open scoped BigOperators

variable (m : (ℓ : Loc nD τ sig) → Buf (Elt Ideal) ℓ) (c : Dev nD)

/-- The six arrays as the tiled region finds them: x and codes with rows flattened, the bias as one row, W, U, V. -/
abbrev X2 : Mat 16384 4096 := V m c main_v0
abbrev C2 : Mat 16384 8 := V m c main_v1
abbrev B2 : Mat 1 4096 := V m c main_v2
abbrev Wm : Mat 4096 4096 := V m c main_arg2
abbrev Um : Mat 4096 8 := V m c main_arg4
abbrev Vm : Mat 4096 8 := V m c main_arg5

/-- One k-step of the base accumulator: from the first k blocks to the first k + 1. -/
theorem base_step (t : Fin cfg0.N) (acc : Vec Ideal S1024x1024 .f32)
    (hacc : ∀ r q : Fin 1024, acc (ix2 r q)
      = partRR (X2 m c) (Wm m c) (t.val / 32 * 1024 + r.val) (t.val / 8 % 4 * 1024 + q.val) (t.val % 8))
    (r q : Fin 1024) :
    k0_pay4 (xB m c t) (wB m c t) acc (ix2 r q)
      = partRR (X2 m c) (Wm m c) (t.val / 32 * 1024 + r.val) (t.val / 8 % 4 * 1024 + q.val) (t.val % 8 + 1) := by
  refine (pay4_apply (xB m c t) (wB m c t) acc r q).trans ?_
  rw [hacc r q, partRR_succ]
  refine congrArg _ (Finset.sum_congr rfl fun l _ => ?_)
  rw [show xB m c t (ix2 r l) = _ from iblk0_apply m c t r l, show wB m c t (ix2 q l) = _ from iblk1_apply m c t q l]

/-- One k-step of the low-rank accumulator. -/
theorem low_step (t : Fin cfg0.N) (acc : Vec Ideal S1024x8 .f32)
    (hacc : ∀ (r : Fin 1024) (s : Fin 8), acc (ix2 r s)
      = partRC (X2 m c) (Vm m c) (t.val / 32 * 1024 + r.val) s.val (t.val % 8))
    (r : Fin 1024) (s : Fin 8) :
    k0_pay5 (xB m c t) (vB m c t) acc (ix2 r s)
      = partRC (X2 m c) (Vm m c) (t.val / 32 * 1024 + r.val) s.val (t.val % 8 + 1) := by
  refine (pay5_apply (xB m c t) (vB m c t) acc r s).trans ?_
  rw [hacc r s, partRC_succ]
  refine congrArg _ (Finset.sum_congr rfl fun l _ => ?_)
  rw [show xB m c t (ix2 r l) = _ from iblk0_apply m c t r l, show vB m c t (ix2 l s) = _ from iblk2_apply m c t l s]

/-- The invariant's statement at point n. -/
def Inv (n : Nat) (h : n < cfg0.N) : Prop :=
  (∀ r q : Fin 1024, (outsAt0 m c n h).2.1 (ix2 r q)
      = partRR (X2 m c) (Wm m c) (n / 32 * 1024 + r.val) (n / 8 % 4 * 1024 + q.val) (n % 8 + 1))
    ∧ (∀ (r : Fin 1024) (s : Fin 8), (outsAt0 m c n h).2.2 (ix2 r s)
      = partRC (X2 m c) (Vm m c) (n / 32 * 1024 + r.val) s.val (n % 8 + 1))

/-- At a point with k = 0: cleared, then the first block. -/
theorem inv_first (t : Fin cfg0.N) (h0 : t.val % 8 = 0) : Inv m c t.val t.isLt := by
  have hf := accs_first m c t h0
  refine ⟨fun r q => ?_, fun r s => ?_⟩
  · refine (congrFun hf.1 (ix2 r q)).trans ?_
    exact base_step m c t (k0_pay1 (F := Ideal)) (fun r q => by rw [h0, partRR_zero]; exact pay1_apply _) r q
  · refine (congrFun hf.2 (ix2 r s)).trans ?_
    exact low_step m c t (k0_pay2 (F := Ideal)) (fun r s => by rw [h0, partRC_zero]; exact pay2_apply _) r s

/-- The accumulators after every point. -/
theorem acc_inv : ∀ (n : Nat) (h : n < cfg0.N), Inv m c n h
  | 0, h => inv_first m c ⟨0, h⟩ rfl
  | n + 1, h => by
    by_cases h0 : (n + 1) % 8 = 0
    · exact inv_first m c ⟨n + 1, h⟩ h0
    · have hs := accs_step m c ⟨n + 1, h⟩ h0
      have ih := acc_inv n (Nat.lt_of_succ_lt h)
      have e1 : (n + 1) / 32 = n / 32 := by omega
      have e2 : (n + 1) / 8 % 4 = n / 8 % 4 := by omega
      have e3 : (n + 1) % 8 = n % 8 + 1 := by omega
      refine ⟨fun r q => ?_, fun r s => ?_⟩
      · refine (congrFun hs.1 (ix2 r q)).trans ?_
        exact base_step m c ⟨n + 1, h⟩ (prevBase m c ⟨n + 1, h⟩) (fun r q => by
          show (outsAt0 m c n _).2.1 (ix2 r q)
            = partRR (X2 m c) (Wm m c) ((n + 1) / 32 * 1024 + r.val) ((n + 1) / 8 % 4 * 1024 + q.val) ((n + 1) % 8)
          rw [e1, e2, e3]
          exact ih.1 r q) r q
      · refine (congrFun hs.2 (ix2 r s)).trans ?_
        exact low_step m c ⟨n + 1, h⟩ (prevLow m c ⟨n + 1, h⟩) (fun r s => by
          show (outsAt0 m c n _).2.2 (ix2 r s)
            = partRC (X2 m c) (Vm m c) ((n + 1) / 32 * 1024 + r.val) s.val ((n + 1) % 8)
          rw [e1, e3]
          exact ih.2 r s) r s

/-- The output block a point with k = 7 stores, entry by entry: the flattened result at row 1024 i + r and
    column 1024 j + q. -/
theorem out_at (t : Fin cfg0.N) (h1 : t.val % 8 = 7) (r q : Fin 1024)
    (hR : t.val / 32 * 1024 + r.val < 16384) (hQ : t.val / 8 % 4 * 1024 + q.val < 4096) :
    (outsAt0 m c t.val t.isLt).1 (ix2 r q)
      = G2at (X2 m c) (C2 m c) (Wm m c) (B2 m c) (Um m c) (Vm m c)
          ⟨t.val / 32 * 1024 + r.val, hR⟩ ⟨t.val / 8 % 4 * 1024 + q.val, hQ⟩ := by
  obtain ⟨hb, hl⟩ := acc_inv m c t.val t.isLt
  refine (congrFun (out_last m c t h1) (ix2 r q)).trans ?_
  refine (pay6_apply _ (cB m c t) (uB m c t) _ (bB m c t) r q).trans ?_
  unfold G2at
  have eB : (outsAt0 m c t.val t.isLt).2.1 (ix2 r q)
      = ∑ d : Fin 4096, X2 m c (ix2 ⟨t.val / 32 * 1024 + r.val, hR⟩ d) * Wm m c (ix2 ⟨t.val / 8 % 4 * 1024 + q.val, hQ⟩ d) := by
    rw [hb r q, h1]
    exact partRR_full (X2 m c) (Wm m c) ⟨t.val / 32 * 1024 + r.val, hR⟩ ⟨t.val / 8 % 4 * 1024 + q.val, hQ⟩
  have e5 : bB m c t (ix2 0 q) = B2 m c (ix2 0 ⟨t.val / 8 % 4 * 1024 + q.val, hQ⟩) :=
    (iblk5_apply m c t q).trans (nat2_of_lt _ (by omega) hQ)
  rw [eB, e5]
  refine congrArg (fun z => _ + z * _) (Finset.sum_congr rfl fun s _ => ?_)
  have eL : (outsAt0 m c t.val t.isLt).2.2 (ix2 r s)
      = ∑ d : Fin 4096, X2 m c (ix2 ⟨t.val / 32 * 1024 + r.val, hR⟩ d) * Vm m c (ix2 d s) := by
    rw [hl r s, h1]
    exact partRC_full (X2 m c) (Vm m c) ⟨t.val / 32 * 1024 + r.val, hR⟩ s
  have e4 : cB m c t (ix2 r s) = C2 m c (ix2 ⟨t.val / 32 * 1024 + r.val, hR⟩ s) :=
    (iblk4_apply m c t r s).trans (nat2_of_lt _ hR s.isLt)
  have e3 : uB m c t (ix2 q s) = Um m c (ix2 ⟨t.val / 8 % 4 * 1024 + q.val, hQ⟩ s) :=
    (iblk3_apply m c t q s).trans (nat2_of_lt _ hQ s.isLt)
  rw [eL, e4, e3]

end Cert.KernelIdeal.Acc

end
-- ==== Proof.Cover.lean ====
/-
  Where the tiled program's output blocks sit in the output matrix, and that they tile it.

  The output is a 16384 × 4096 matrix cut into 16 × 4 blocks of 1024 × 1024.  The grid has 16 · 4 · 8 = 512 points, run
  in row-major order, so point t has block row t / 32 and block column (t / 8) mod 4, and the last of the eight
  contraction steps of a block is the point with t mod 8 = 7: the only points at which a block is written back.

    * `idx6`: the block index of point t, checked at each of the 512 points;
    * `emb6`: entry (r, q) of point t's block is entry ((t / 32) · 1024 + r, ((t / 8) mod 4) · 1024 + q) of the matrix;
    * `cover6`: every entry (p, o) of the matrix lies in a block that is written back, namely that of the point
      t = (p / 1024) · 32 + (o / 1024) · 8 + 7.
-/
import proofs.«140376_j57226144252156_1_alg».proof.Proof.Gen.KernelIdeal.Frame
import Idealize.ShloMosaic.Lib.Pipeline.Value
import Idealize.ShloMosaic.Lib.ValueIdx

noncomputable section

namespace Cert.KernelIdeal.Cover

open Cert.KernelIdeal Cert.KernelIdeal.Gen Idealize.ShloMosaic Idealize.ShloMosaic.ValueIdx Idealize.ShloMosaic.TcCoe Idealize.SL.Sem

/-- The block row and block column of point `t`. -/
theorem idx6 : ∀ t : Fin cfg0.N, win0_6.index t (0 : Fin 2) = t.val / 32 ∧ win0_6.index t (1 : Fin 2) = t.val / 8 % 4 :=
  (by decide +kernel : ∀ t : Fin grid0.N, _)

/-- Entry (r, q) of point `t`'s block, as an entry of the whole matrix: block offset plus position in the block. -/
theorem emb6 (t : Fin cfg0.N) (r q : Fin 1024) (h0 : t.val / 32 * 1024 + r.val < 16384)
    (h1 : t.val / 8 % 4 * 1024 + q.val < 4096) :
    ((cfg0.win 6).blk t).view.emb (ix2 r q)
      = (ix2 ⟨t.val / 32 * 1024 + r.val, h0⟩ ⟨t.val / 8 % 4 * 1024 + q.val, h1⟩ : S16384x4096.Idx) := by
  funext a
  apply Fin.ext
  match a with
  | ⟨0, _⟩ =>
    show win0_6.index t (0 : Fin 2) * 1024 + 1 * r.val = t.val / 32 * 1024 + r.val
    rw [(idx6 t).1]; omega
  | ⟨1, _⟩ =>
    show win0_6.index t (1 : Fin 2) * 1024 + 1 * q.val = t.val / 8 % 4 * 1024 + q.val
    rw [(idx6 t).2]; omega

/-- The blocks written back tile the matrix: entry (p, o) is in the block of the point (p / 1024) · 32 + (o / 1024) · 8 + 7,
    whose block row is p / 1024 and block column o / 1024, and which is the last contraction step of that block. -/
theorem cover6 (c : Dev nD) : ∀ i : ((cfg0.win 6).arr.view.loc (c.tc : Thread nD τ)).2.ty.Idx,
    ∃ t : Fin cfg0.N, (cfg0.win 6).flush t = true ∧ i ∈ ((cfg0.win 6).blk t).view.set := by
  intro i
  have hN : cfg0.N = 512 := N_0
  have h0 : (i 0 : Nat) < 16384 := (i 0).isLt
  have h1 : (i 1 : Nat) < 4096 := (i 1).isLt
  obtain ⟨t, ht⟩ : ∃ t : Fin cfg0.N, t.val = (i 0 : Nat) / 1024 * 32 + (i 1 : Nat) / 1024 * 8 + 7 :=
    ⟨⟨(i 0 : Nat) / 1024 * 32 + (i 1 : Nat) / 1024 * 8 + 7, by rw [hN]; omega⟩, rfl⟩
  refine ⟨t, (flush0_6 t).mpr (by omega), ?_⟩
  show i ∈ ((View.whole main_v3).slice (win0_6.rect t)).set
  rw [View.set_slice_whole, Rect.mem_set_unit]
  intro a
  match a with
  | ⟨0, _⟩ =>
    show win0_6.index t (0 : Fin 2) * win0_6.size (0 : Fin 2) ≤ (i 0 : Nat)
      ∧ (i 0 : Nat) < win0_6.index t (0 : Fin 2) * win0_6.size (0 : Fin 2) + win0_6.xsize (grid0.coords t) (0 : Fin 2)
    rw [(idx6 t).1, show win0_6.size (0 : Fin 2) = 1024 from rfl, show win0_6.xsize (grid0.coords t) (0 : Fin 2) = 1024 from rfl]
    omega
  | ⟨1, _⟩ =>
    show win0_6.index t (1 : Fin 2) * win0_6.size (1 : Fin 2) ≤ (i 1 : Nat)
      ∧ (i 1 : Nat) < win0_6.index t (1 : Fin 2) * win0_6.size (1 : Fin 2) + win0_6.xsize (grid0.coords t) (1 : Fin 2)
    rw [(idx6 t).2, show win0_6.size (1 : Fin 2) = 1024 from rfl, show win0_6.xsize (grid0.coords t) (1 : Fin 2) = 1024 from rfl]
    omega

end Cert.KernelIdeal.Cover

end
-- ==== Proof.Tail.lean ====
/-
  The whole run of the tiled program, read at its result.

  After the tiled region the program does one more thing: it reshapes the region's output array (16384 x 4096, batch
  and position flattened into one row index) back into the three-axis result (4 x 4096 x 4096).  Nothing else is
  written after the region, and nothing at all writes the six argument arrays.  So once the output array is known to
  end holding `Y`, the result is the reshape of `Y`, and the six arguments end as they started.  This holds over any
  float model `F`: no arithmetic is involved, only which buffer is written by what.
-/
import proofs.«140376_j57226144252156_1_alg».proof.Proof.Gen.KernelIdeal.Frame
import Idealize.ShloMosaic.Lib.Pipeline.Value
import Idealize.ShloMosaic.Lib.StableHlo.Run
import Idealize.ShloMosaic.Lib.Tactic

set_option maxRecDepth 16384

noncomputable section

namespace Cert.KernelIdeal.Tail

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]

/-- The result buffer after the last reshape: the reshape reads the output array as the region left it, which is `Y`. -/
theorem tail_v4 (m : (ℓ : Loc nD τ sig) → Buf (Elt F) ℓ)
    (Y : (c : Dev nD) → Buf (Elt F) ((c : Thread nD τ).loc main_v3)) (hY : ∀ c, (dats m 0 c).arrAt 6 cfg0.N = Y c)
    (c : Dev nD) :
    Pipeline.afterTail₀ cfgs (dats m) 0 (V0 m) [hostOps1] c main_v4
      = shapeCast S4x4096x4096 (Y c) shapeCasts_S16384x4096_S4x4096x4096 := by
  -- the output array, as the operations after the region find it
  have e : Pipeline.withArrays (cfgs 0).spec c (V0 m c) (fun w => (dats m 0 c).arrAt w (cfgs 0).N)
      (Proc.devRef .tc main_v3) = Y c :=
    (Pipeline.withArrays_arr spec0 launch0.win.arr_inj c _ _ 6).trans (hY c)
  unfold Pipeline.afterTail₀
  show StableHlo.after hostOps1 _ (Proc.devRef .tc main_v4) = _
  after_results
  exact congrArg (fun y => shapeCast S4x4096x4096 y shapeCasts_S16384x4096_S4x4096x4096) e

/-- Every fair execution of the program terminates with the result buffer at the reshape of `Y` and the six
    arguments unchanged, whenever the region's output array ends holding `Y`. -/
theorem run_of_final (m : (ℓ : Loc nD τ sig) → Buf (Elt F) ℓ) (ρ : Dev nD → PrngReg)
    (Y : (c : Dev nD) → Buf (Elt F) ((c : Thread nD τ).loc main_v3)) (hY : ∀ c, (dats m 0 c).arrAt 6 cfg0.N = Y c) :
    θ_run defs (onTc (τ := τ) (main (F := F))) ⟨m, fun _ => 0, ρ⟩ (fun r => ∀ c : Dev nD,
      r.2.mem ((c.tc : Thread nD τ).loc main_v4) = shapeCast S4x4096x4096 (Y c) shapeCasts_S16384x4096_S4x4096x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨-- the result: no window's array, so it is what the last reshape leaves
      ((h c).2 main_v4 (Pipeline.mem_restRefs_of main_v4 (by decide) (by decide))).trans (tail_v4 m Y hY c),
      -- x, codes and bias are read only by the reshapes before the region
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      -- W is an input array of the region: it ends as the region found it, which is as launched
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      -- U and V likewise
      ((h c).1 3).trans (((dats m 0 c).arrAt_in 3 rfl _).trans ((A_eq m c 3).trans (V_main_arg4 m c))),
      ((h c).1 2).trans (((dats m 0 c).arrAt_in 2 rfl _).trans ((A_eq m c 2).trans (V_main_arg5 m c)))⟩)
    (run_main m ρ)

end Cert.KernelIdeal.Tail

end
-- ==== Proof.Flatten.lean ====
/-
  Flattening the two leading axes commutes with the computation.

  The three-axis arrays x[b, s, d] and codes[b, s, r] are stored row-major, so reading them as matrices with
  16384 = 4 · 4096 rows puts the entry (b, s, ·) in row p = 4096 · b + s.  The bias becomes a one-row matrix.  The
  result at (b, s, o) only involves row (b, s) of x and of the codes, hence the flattened computation `G2` read back at
  row 4096 · b + s is the three-axis computation `G` at (b, s).
-/
import proofs.«140376_j57226144252156_1_alg».proof.Proof.Spec
import Idealize.ShloMosaic.Lib.Pipeline.Value
import Idealize.ShloMosaic.Lib.ValueIdx
import Idealize.ShloMosaic.Lib.ValueLayout

noncomputable section

namespace Cert.GatedLowRank

open Idealize.ShloMosaic Idealize.ShloMosaic.ValueIdx
open scoped BigOperators

variable {α : Type}

/-- The row of a flattened array that holds batch `b`, position `s`. -/
def flatRow (b : Fin 4) (s : Fin 4096) : Fin 16384 := ⟨4096 * b.val + s.val, by omega⟩

theorem flatRow_val (b : Fin 4) (s : Fin 4096) : (flatRow b s).val = 4096 * b.val + s.val := rfl

/-- A `[4, 4096, c]` array read as a `[16384, c]` matrix: row 4096 · b + s, column d holds the entry (b, s, d).
Both have row-major position (4096 · b + s) · c + d. -/
theorem flat3_apply {c : Nat} (x : (⟨3, ![4, 4096, c]⟩ : Shape).Idx → α)
    (h : (⟨3, ![4, 4096, c]⟩ : Shape).ShapeCasts ⟨2, ![16384, c]⟩) (b : Fin 4) (s : Fin 4096) (d : Fin c) :
    shapeCast ⟨2, ![16384, c]⟩ x h (ix2 (flatRow b s) d) = x (ix3 b s d) :=
  shapeCast_apply x h _ _ (by
    rw [Shape.rowMajor_val_three, Shape.rowMajor_val_two]
    show (b.val * 4096 + s.val) * c + d.val = (4096 * b.val + s.val) * c + d.val
    rw [Nat.mul_comm 4096 b.val])

/-- A `[16384, c]` matrix read back as a `[4, 4096, c]` array: the entry (b, s, o) is row 4096 · b + s, column o. -/
theorem unflat3_apply {c : Nat} (y : (⟨2, ![16384, c]⟩ : Shape).Idx → α)
    (h : (⟨2, ![16384, c]⟩ : Shape).ShapeCasts ⟨3, ![4, 4096, c]⟩) (b : Fin 4) (s : Fin 4096) (o : Fin c) :
    shapeCast ⟨3, ![4, 4096, c]⟩ y h (ix3 b s o) = y (ix2 (flatRow b s) o) :=
  shapeCast_apply y h _ _ (by
    rw [Shape.rowMajor_val_two, Shape.rowMajor_val_three]
    show (4096 * b.val + s.val) * c + o.val = (b.val * 4096 + s.val) * c + o.val
    rw [Nat.mul_comm 4096 b.val])

/-- The flattened computation at row 4096 · b + s is the three-axis computation at (b, s). -/
theorem G2at_flat (X : Arr3 4 4096 4096) (C : Arr3 4 4096 8) (W : Mat 4096 4096) (Bv : Vec1 4096) (U Vm : Mat 4096 8)
    (h0 : (⟨3, ![4, 4096, 4096]⟩ : Shape).ShapeCasts ⟨2, ![16384, 4096]⟩)
    (h1 : (⟨3, ![4, 4096, 8]⟩ : Shape).ShapeCasts ⟨2, ![16384, 8]⟩)
    (h2 : (⟨1, ![4096]⟩ : Shape).ShapeCasts ⟨2, ![1, 4096]⟩) (b : Fin 4) (s o : Fin 4096) :
    G2at (shapeCast (⟨2, ![16384, 4096]⟩ : Shape) X h0) (shapeCast (⟨2, ![16384, 8]⟩ : Shape) C h1) W
        (shapeCast (⟨2, ![1, 4096]⟩ : Shape) Bv h2) U Vm (flatRow b s) o
      = Gat X C W Bv U Vm b s o := by
  unfold G2at Gat
  simp only [flat3_apply, shapeCast_a_1a_apply]

/-- Flatten, compute on matrices, un-flatten: the three-axis result. -/
theorem G_flatten (X : Arr3 4 4096 4096) (C : Arr3 4 4096 8) (W : Mat 4096 4096) (Bv : Vec1 4096) (U Vm : Mat 4096 8)
    (h0 : (⟨3, ![4, 4096, 4096]⟩ : Shape).ShapeCasts ⟨2, ![16384, 4096]⟩)
    (h1 : (⟨3, ![4, 4096, 8]⟩ : Shape).ShapeCasts ⟨2, ![16384, 8]⟩)
    (h2 : (⟨1, ![4096]⟩ : Shape).ShapeCasts ⟨2, ![1, 4096]⟩)
    (h3 : (⟨2, ![16384, 4096]⟩ : Shape).ShapeCasts ⟨3, ![4, 4096, 4096]⟩) :
    shapeCast (⟨3, ![4, 4096, 4096]⟩ : Shape)
        (G2 (shapeCast (⟨2, ![16384, 4096]⟩ : Shape) X h0) (shapeCast (⟨2, ![16384, 8]⟩ : Shape) C h1) W
          (shapeCast (⟨2, ![1, 4096]⟩ : Shape) Bv h2) U Vm) h3
      = G X C W Bv U Vm := by
  funext i
  obtain ⟨b, s, o, rfl⟩ : ∃ (b : Fin 4) (s o : Fin 4096), i = ix3 b s o := ⟨i 0, i 1, i 2, eq_ix3 i⟩
  rw [unflat3_apply]
  exact G2at_flat X C W Bv U Vm h0 h1 h2 b s o

end Cert.GatedLowRank

end
-- ==== Proof.Final.lean ====
/-
  The tiled program's result array.

  The output is written back only at the points with k = 7, one 1024 x 1024 block per pair (i, j); what such a
  point writes is block (i, j) of the specification's flattened result (the invariant of the accumulators at
  k = 7).  The 16 x 4 blocks tile the 16384 x 4096 array, so after the region the array holds the flattened result
  everywhere.  The one operation after the region un-flattens the rows into (batch, position); the three reshapes
  before it flattened x and codes and wrote the bias as one row; so the program's result is the specification's
  function of its six arguments.
-/
import proofs.«140376_j57226144252156_1_alg».proof.Proof.Acc
import proofs.«140376_j57226144252156_1_alg».proof.Proof.Cover
import proofs.«140376_j57226144252156_1_alg».proof.Proof.Tail
import proofs.«140376_j57226144252156_1_alg».proof.Proof.Flatten

set_option maxRecDepth 16384

noncomputable section

namespace Cert.KernelIdeal.Final

open Cert.KernelIdeal Cert.KernelIdeal.Gen Cert.KernelIdeal.Acc Cert.KernelIdeal.Cover Cert.KernelIdeal.Tail Cert.KernelIdeal.Blocks
open Cert.GatedLowRank
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- What the output array holds after the region: the flattened result of the arrays the region found. -/
abbrev Yflat (c : Dev nD) : Buf (Elt Ideal) ((c : Thread nD τ).loc main_v3) :=
  G2 (X2 m c) (C2 m c) (Wm m c) (B2 m c) (Um m c) (Vm m c)

/-- A point with k = 7 writes back block (i, j) of the flattened result: entry (r, q) of the block sits at row
    1024 i + r and column 1024 j + q of the array. -/
theorem flushed_eq (c : Dev nD) (t : Fin cfg0.N) (hf : (cfg0.win 6).flush t = true) :
    (dats m 0 c).flushed 6 t = ((cfg0.win 6).blk t).view.read (Elt Ideal) (Yflat m c) := by
  have h1 : t.val % 8 = 7 := (flush0_6 t).mp hf
  have hN : t.val < 512 := t_lt t
  show (cfg0.win 6).cut (grid0.coords t) ((dats m 0 c).after 6 t) = _
  rw [after0_6]
  funext y
  obtain ⟨r, q, rfl⟩ : ∃ r q : Fin 1024, y = ix2 r q :=
    ⟨⟨(y 0).val, (y 0).isLt⟩, ⟨(y 1).val, (y 1).isLt⟩, funext fun a => by
      match a with
      | ⟨0, _⟩ => rfl
      | ⟨1, _⟩ => rfl⟩
  have hR : t.val / 32 * 1024 + r.val < 16384 := by have := r.isLt; omega
  have hQ : t.val / 8 % 4 * 1024 + q.val < 4096 := by have := q.isLt; omega
  have ex : (cfg0.win 6).xinj (grid0.coords t) (ix2 r q) = ix2 r q := funext fun a => by
    match a with
    | ⟨0, _⟩ => rfl
    | ⟨1, _⟩ => rfl
  show (outsAt0 m c t.val t.isLt).1 ((cfg0.win 6).xinj (grid0.coords t) (ix2 r q)) = _
  rw [ex, View.read_apply, emb6 t r q hR hQ]
  exact out_at m c t h1 r q hR hQ

/-- The output's 16 x 4 blocks tile the array, so after the region it holds the flattened result everywhere. -/
theorem final (c : Dev nD) : (dats m 0 c).arrAt 6 cfg0.N = Yflat m c :=
  (dats m 0 c).arrAt_eq_of_cover 6 (Yflat m c) (flushed_eq m c) (cover6 c)

/-- Un-flattening the flattened result of the flattened arguments is the result of the arguments. -/
theorem result_eq (c : Dev nD) :
    shapeCast S4x4096x4096 (Yflat m c) shapeCasts_S16384x4096_S4x4096x4096
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  show shapeCast S4x4096x4096 (G2 (V m c main_v0 : Mat 16384 4096) (V m c main_v1 : Mat 16384 8) (V m c main_arg2 : Mat 4096 4096)
    (V m c main_v2 : Mat 1 4096) (V m c main_arg4 : Mat 4096 8) (V m c main_arg5 : Mat 4096 8)) shapeCasts_S16384x4096_S4x4096x4096 = _
  rw [V_v0 m c, V_v1 m c, V_v2 m c, V_main_arg2 m c, V_main_arg4 m c, V_main_arg5 m c]
  exact G_flatten _ _ _ _ _ _ shapeCasts_S4x4096x4096_S16384x4096 shapeCasts_S4x4096x8_S16384x8 shapeCasts_S4096_S1x4096
    shapeCasts_S16384x4096_S4x4096x4096

/-- Every weakly fair execution of the tiled program at the extended reals terminates with its result at the
    specification's function of the six arguments, and the arguments unchanged. -/
theorem run : θ_run defs (onTc (τ := τ) (main (F := Ideal))) ⟨m, fun _ => 0, ρ⟩ (fun r => ∀ c : Dev nD,
      r.2.mem ((c.tc : Thread nD τ).loc main_v4)
        = G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (result_eq m c), (h c).2⟩)
    (run_of_final m ρ (Yflat m) (final m))

end Cert.KernelIdeal.Final

end
-- ==== Proof.lean ====
/-
  A linear layer with a gated low-rank update, tiled, against its plain reference: both compute, over the
  extended reals,

      out[b, s, o] = (Σ_d x[b, s, d] · W[o, d] + bias[o]) + (Σ_r ((Σ_d x[b, s, d] · V[d, r]) · codes[b, s, r]) · U[o, r]) · 2.

  The reference does this with three whole contractions.  The tiled program flattens (b, s) into 16384 rows and
  walks a 16 x 4 x 8 grid: for each 1024 x 1024 output block it accumulates x · Wᵀ and x · V over eight blocks
  of 512 of the contracted dimension, and on the last block applies the bias, the gate, the small product with
  Uᵀ and the scale.  At the extended reals a change of float format is the identity and every operation is exact,
  so the only difference between the two sides is how the sums over d are grouped, and addition of extended reals
  is associative and commutative: the claim needs no finiteness of the inputs.

  The modules: Spec (the function, and partial sums over blocks of 512), Pieces (what one grid point leaves in the
  accumulators and the output block), Payloads (the body's arithmetic at an index), Blocks (the input blocks at a
  grid point as entries of the arrays), Acc (the accumulators along the grid), Cover (the output blocks tile the
  array), Tail (the run read at the result), Final (the tiled program's result), Flatten (flattening the rows and
  back), RefValue (the reference's operations are the function).  Below: the three runs, and the claim.
-/
import proofs.«140376_j57226144252156_1_alg».proof.Defs
import proofs.«140376_j57226144252156_1_alg».proof.Proof.Gen.Kernel
import proofs.«140376_j57226144252156_1_alg».proof.Proof.Gen.Kernel.Skeleton
import proofs.«140376_j57226144252156_1_alg».proof.Proof.Gen.Kernel.Launch
import proofs.«140376_j57226144252156_1_alg».proof.Proof.Gen.Kernel.Points
import proofs.«140376_j57226144252156_1_alg».proof.Proof.Gen.Kernel.Frame
import proofs.«140376_j57226144252156_1_alg».proof.Proof.Gen.KernelIdeal
import proofs.«140376_j57226144252156_1_alg».proof.Proof.Gen.KernelIdeal.Skeleton
import proofs.«140376_j57226144252156_1_alg».proof.Proof.Gen.KernelIdeal.Launch
import proofs.«140376_j57226144252156_1_alg».proof.Proof.Gen.KernelIdeal.Points
import proofs.«140376_j57226144252156_1_alg».proof.Proof.Gen.KernelIdeal.Frame
import proofs.«140376_j57226144252156_1_alg».proof.Proof.Gen.ReferenceIdeal
import proofs.«140376_j57226144252156_1_alg».proof.Proof.Gen.ReferenceIdeal.Run
import proofs.«140376_j57226144252156_1_alg».proof.Proof.Gen.ReferenceIdeal.Read
import proofs.«140376_j57226144252156_1_alg».proof.Proof.Gen.Pre_finite_inputs
import proofs.«140376_j57226144252156_1_alg».proof.Proof.RefValue
import proofs.«140376_j57226144252156_1_alg».proof.Proof.Final
import Idealize.ShloMosaic.Adequacy
import Idealize.ShloMosaic.Init

noncomputable section

namespace Cert.Proof

open Idealize.ShloMosaic Idealize.ShloMosaic.TcCoe Idealize.SL.Sem

/-- The word-level tiled program runs to the end, faults nowhere and leaves its arguments as they were. -/
theorem frame_k : Cert.frame_Kernel := fun m ρ _ => Cert.Kernel.Gen.frame m ρ

/-- So does its reading at the extended reals. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Reading the tiled program at the extended reals rewrote none of its operations. -/
theorem preserves : Cert.preserves_Kernel_KernelIdeal := trivial

/-- From memories that agree on the six arguments, both programs end with the specification's function of those
    arguments in their result: the tiled one by the invariant of its accumulators and the tiling of its output, the
    reference operation by operation. -/
theorem algebraic : Cert.algebraic_KernelIdeal_ReferenceIdeal := by
  intro m ρ m' ρ' _ hagree
  refine ⟨fun c => Cert.GatedLowRank.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.Final.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v9_eq, Cert.ReferenceIdeal.RefValue.ref_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
